-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100x256x256 : Shape := ⟨4, ![8, 100, 256, 256]⟩
abbrev S8x50x256x256 : Shape := ⟨4, ![8, 50, 256, 256]⟩
abbrev S_ : Shape := ⟨0, ![]⟩

class Facts : Prop where
  bcast_S_S8x100x256x256 : S_.BroadcastsInDim S8x100x256x256 (![] : Fin 0 → Fin S8x100x256x256.rank)
  reducesTo_S8x100x256x256_S_d0_1_2_3 : S8x100x256x256.ReducesTo [0, 1, 2, 3] S_
  h_S_ : 0 < S_.numel

variable [Facts]

def fn {F : FTy → Type} [FloatOps F] (main_arg0 : FVec F S8x100x256x256 .f32) (main_arg1 : IVec S8x50x256x256 32) : IVec S_ 1 :=
  let main_v0 : FVec F S8x100x256x256 .f32 := Host.absf main_arg0
  let main_cst : FVec F S_ .f32 := constant S_ .f32 0x7F800000#32
  let main_v1 : FVec F S8x100x256x256 .f32 := broadcastInDim S8x100x256x256 ![] bcast_S_S8x100x256x256 main_cst
  let main_v2 : IVec S8x100x256x256 1 := cmpf .olt main_v0 main_v1
  let main_c : IVec S_ 1 := constantI S_ 1 1#1
  let main_v3 : IVec S_ 1 := (fun x v => Host.reduce IntOp.andi x v reducesTo_S8x100x256x256_S_d0_1_2_3 h_S_) main_v2 main_c
  main_v3
-- ==== Kernel.lean ====
abbrev S8x100x256x256 : Shape := ⟨4, ![8, 100, 256, 256]⟩
abbrev S8x50x256x256 : Shape := ⟨4, ![8, 50, 256, 256]⟩
abbrev S8x100x65536 : Shape := ⟨3, ![8, 100, 65536]⟩
abbrev S8x50x65536 : Shape := ⟨3, ![8, 50, 65536]⟩
abbrev S8x100x50 : Shape := ⟨3, ![8, 100, 50]⟩
abbrev S1x100x16384 : Shape := ⟨3, ![1, 100, 16384]⟩
abbrev S1x50x16384 : Shape := ⟨3, ![1, 50, 16384]⟩
abbrev S1x100x50 : Shape := ⟨3, ![1, 100, 50]⟩
abbrev S100x50 : Shape := ⟨2, ![100, 50]⟩
abbrev S100x1 : Shape := ⟨2, ![100, 1]⟩
abbrev S50x1 : Shape := ⟨2, ![50, 1]⟩
abbrev S100x16384 : Shape := ⟨2, ![100, 16384]⟩
abbrev S50x16384 : Shape := ⟨2, ![50, 16384]⟩
abbrev S100 : Shape := ⟨1, ![100]⟩
abbrev S50 : Shape := ⟨1, ![50]⟩
abbrev S1x50 : Shape := ⟨2, ![1, 50]⟩

abbrev nBuf : Space → Nat
  | .hbm => 5
  | .vmem => 11
  | .smem => 0
  | _ => 0

abbrev bufTy : (tb : Table) → Fin (tcTables nBuf tb) → BufTy
  | .hbm, ⟨0, _⟩ => ⟨S8x100x256x256, .f32⟩
  | .hbm, ⟨1, _⟩ => ⟨S8x50x256x256, .i32⟩
  | .hbm, ⟨2, _⟩ => ⟨S8x100x65536, .f32⟩
  | .hbm, ⟨3, _⟩ => ⟨S8x50x65536, .i32⟩
  | .hbm, ⟨4, _⟩ => ⟨S8x100x50, .f32⟩
  | .local _ .vmem, ⟨0, _⟩ => ⟨S1x100x16384, .f32⟩
  | .local _ .vmem, ⟨1, _⟩ => ⟨S1x100x16384, .f32⟩
  | .local _ .vmem, ⟨2, _⟩ => ⟨S1x50x16384, .i32⟩
  | .local _ .vmem, ⟨3, _⟩ => ⟨S1x50x16384, .i32⟩
  | .local _ .vmem, ⟨4, _⟩ => ⟨S1x100x50, .f32⟩
  | .local _ .vmem, ⟨5, _⟩ => ⟨S1x100x50, .f32⟩
  | .local _ .vmem, ⟨6, _⟩ => ⟨S100x50, .f32⟩
  | .local _ .vmem, ⟨7, _⟩ => ⟨S100x50, .f32⟩
  | .local _ .vmem, ⟨8, _⟩ => ⟨S100x1, .f32⟩
  | .local _ .vmem, ⟨9, _⟩ => ⟨S100x1, .f32⟩
  | .local _ .vmem, ⟨10, _⟩ => ⟨S50x1, .f32⟩
  | _, _ => ⟨S8x100x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_32 : BitVec 32 := 0#32
  let v62 : BitVec 1 := Scalar.cmpi .ne v61 c0_i32_32
  v62

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x100x256x256_S8x100x65536 : S8x100x256x256.ShapeCasts S8x100x65536
  shapeCasts_S8x50x256x256_S8x50x65536 : S8x50x256x256.ShapeCasts S8x50x65536
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S1x100x16384_S1x100x16384_0_0_0 : ∀ a, (![0, 0, 0] : Fin 3 → Nat) a + S1x100x16384.size a ≤ S1x100x16384.size a
  h_S1x100x16384 : 0 < S1x100x16384.numel
  shapeCasts_S1x100x16384_S100x16384 : S1x100x16384.ShapeCasts S100x16384
  inb_S1x50x16384_S1x50x16384_0_0_0 : ∀ a, (![0, 0, 0] : Fin 3 → Nat) a + S1x50x16384.size a ≤ S1x50x16384.size a
  h_S1x50x16384 : 0 < S1x50x16384.numel
  shapeCasts_S1x50x16384_S50x16384 : S1x50x16384.ShapeCasts S50x16384
  bitsLt_bf16_f32 : FTy.bits .bf16 < FTy.bits .f32
  reduces_S100x16384_S100 : S100x16384.Reduces [1] S100
  shapeCasts_S100_S100x1 : S100.ShapeCasts S100x1
  reduces_S50x16384_S50 : S50x16384.Reduces [1] S50
  shapeCasts_S50_S50x1 : S50.ShapeCasts S50x1
  transposes_S50x1_p1_0_S1x50 : S50x1.Transposes [1, 0] S1x50
  broadcasts_S100x1_S100x50 : S100x1.Broadcasts S100x50
  broadcasts_S1x50_S100x50 : S1x50.Broadcasts S100x50
  inb_S1x100x50_S1x100x50_0_0_0 : ∀ a, (![0, 0, 0] : Fin 3 → Nat) a + S1x100x50.size a ≤ S1x100x50.size a
  h_S1x100x50 : 0 < S1x100x50.numel
  shapeCasts_S1x100x50_S100x50 : S1x100x50.ShapeCasts S100x50
  shapeCasts_S100x50_S1x100x50 : S100x50.ShapeCasts S1x100x50
  dot_S100x16384_S50x16384_S100x50_1_1_0_0_n_n_wf : DotDims.WF S100x16384 S50x16384 S100x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x16384.size a ≤ S8x100x65536.size a
  hwx0_0 : ∀ i : grid0.Coords, EltTy.bits .f32 = 32 ∨ (Rect.block (s := S8x100x65536) S1x100x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x16384.size a ≤ S8x50x65536.size a
  hwx0_1 : ∀ i : grid0.Coords, EltTy.bits .i32 = 32 ∨ (Rect.block (s := S8x50x65536) S1x50x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x50.size a ≤ S8x100x50.size a
  hwx0_2 : ∀ i : grid0.Coords, EltTy.bits .f32 = 32 ∨ (Rect.block (s := S8x100x50) S1x100x50.size (cc0_transform_2 i) (hinb0_2 i)).WholeWords (EltTy.packing .f32)

variable [Facts₀]

def dot_S100x16384_S50x16384_S100x50_1_1_0_0_n_n : DotDims S100x16384 S50x16384 S100x50 where
  lhsContracting := [1]
  rhsContracting := [1]
  lhsNonContracting := [0]
  rhsNonContracting := [0]
  lhsBatch := []
  rhsBatch := []
  wf := dot_S100x16384_S50x16384_S100x50_1_1_0_0_n_n_wf

abbrev win0_0 : Pipeline.Window sig grid0 :=
  Pipeline.Window.ofSpec (Memref.whole main_v0) S1x100x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x50x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x100x256x256 : Shape := ⟨4, ![8, 100, 256, 256]⟩
abbrev S8x50x256x256 : Shape := ⟨4, ![8, 50, 256, 256]⟩
abbrev S8x100x65536 : Shape := ⟨3, ![8, 100, 65536]⟩
abbrev S8x50x65536 : Shape := ⟨3, ![8, 50, 65536]⟩
abbrev S_ : Shape := ⟨0, ![]⟩
abbrev S8x100x50 : Shape := ⟨3, ![8, 100, 50]⟩
abbrev S8x100 : Shape := ⟨2, ![8, 100]⟩
abbrev S8x100x1 : Shape := ⟨3, ![8, 100, 1]⟩
abbrev S8x50 : Shape := ⟨2, ![8, 50]⟩
abbrev S8x1x50 : Shape := ⟨3, ![8, 1, 50]⟩

abbrev nBuf : Space → Nat
  | .hbm => 81
  | .vmem => 0
  | .smem => 0
  | _ => 0

abbrev bufTy : (tb : Table) → Fin (tcTables nBuf tb) → BufTy
  | .hbm, ⟨0, _⟩ => ⟨S8x100x256x256, .f32⟩
  | .hbm, ⟨1, _⟩ => ⟨S8x50x256x256, .i32⟩
  | .hbm, ⟨2, _⟩ => ⟨S8x100x65536, .f32⟩
  | .hbm, ⟨3, _⟩ => ⟨S8x50x65536, .i32⟩
  | .hbm, ⟨4, _⟩ => ⟨S8x50x65536, .f32⟩
  | .hbm, ⟨5, _⟩ => ⟨S8x100x65536, .f32⟩
  | .hbm, ⟨6, _⟩ => ⟨S_, .f32⟩
  | .hbm, ⟨7, _⟩ => ⟨S8x100x65536, .f32⟩
  | .hbm, ⟨8, _⟩ => ⟨S8x100x65536, .f32⟩
  | .hbm, ⟨9, _⟩ => ⟨S8x100x65536, .f32⟩
  | .hbm, ⟨10, _⟩ => ⟨S8x100x65536, .f32⟩
  | .hbm, ⟨11, _⟩ => ⟨S8x100x65536, .i1⟩
  | .hbm, ⟨12, _⟩ => ⟨S8x100x65536, .f32⟩
  | .hbm, ⟨13, _⟩ => ⟨S8x100x65536, .f32⟩
  | .hbm, ⟨14, _⟩ => ⟨S8x100x65536, .f32⟩
  | .hbm, ⟨15, _⟩ => ⟨S8x100x65536, .f32⟩
  | .hbm, ⟨16, _⟩ => ⟨S8x100x65536, .f32⟩
  | .hbm, ⟨17, _⟩ => ⟨S8x100x65536, .f32⟩
  | .hbm, ⟨18, _⟩ => ⟨S8x100x65536, .f32⟩
  | .hbm, ⟨19, _⟩ => ⟨S8x100x65536, .f32⟩
  | .hbm, ⟨20, _⟩ => ⟨S_, .f32⟩
  | .hbm, ⟨21, _⟩ => ⟨S8x100x65536, .f32⟩
  | .hbm, ⟨22, _⟩ => ⟨S8x100x65536, .f32⟩
  | .hbm, ⟨23, _⟩ => ⟨S8x100x65536, .f32⟩
  | .hbm, ⟨24, _⟩ => ⟨S8x100x65536, .f32⟩
  | .hbm, ⟨25, _⟩ => ⟨S8x100x65536, .i1⟩
  | .hbm, ⟨26, _⟩ => ⟨S8x100x65536, .f32⟩
  | .hbm, ⟨27, _⟩ => ⟨S8x100x65536, .f32⟩
  | .hbm, ⟨28, _⟩ => ⟨S8x100x65536, .f32⟩
  | .hbm, ⟨29, _⟩ => ⟨S8x100x65536, .f32⟩
  | .hbm, ⟨30, _⟩ => ⟨S8x100x65536, .f32⟩
  | .hbm, ⟨31, _⟩ => ⟨S8x100x65536, .f32⟩
  | .hbm, ⟨32, _⟩ => ⟨S8x100x65536, .f32⟩
  | .hbm, ⟨33, _⟩ => ⟨S8x100x65536, .f32⟩
  | .hbm, ⟨34, _⟩ => ⟨S8x100x50, .f32⟩
  | .hbm, ⟨35, _⟩ => ⟨S_, .f32⟩
  | .hbm, ⟨36, _⟩ => ⟨S8x50x65536, .f32⟩
  | .hbm, ⟨37, _⟩ => ⟨S8x50x65536, .f32⟩
  | .hbm, ⟨38, _⟩ => ⟨S8x100x50, .f32⟩
  | .hbm, ⟨39, _⟩ => ⟨S8x100x50, .f32⟩
  | .hbm, ⟨40, _⟩ => ⟨S_, .f32⟩
  | .hbm, ⟨41, _⟩ => ⟨S8x100x50, .f32⟩
  | .hbm, ⟨42, _⟩ => ⟨S8x100x50, .f32⟩
  | .hbm, ⟨43, _⟩ => ⟨S8x100x65536, .f32⟩
  | .hbm, ⟨44, _⟩ => ⟨S8x100x65536, .f32⟩
  | .hbm, ⟨45, _⟩ => ⟨S_, .f32⟩
  | .hbm, ⟨46, _⟩ => ⟨S8x100x65536, .f32⟩
  | .hbm, ⟨47, _⟩ => ⟨S8x100x65536, .f32⟩
  | .hbm, ⟨48, _⟩ => ⟨S_, .f32⟩
  | .hbm, ⟨49, _⟩ => ⟨S8x100x65536, .f32⟩
  | .hbm, ⟨50, _⟩ => ⟨S8x100x65536, .f32⟩
  | .hbm, ⟨51, _⟩ => ⟨S8x100x50, .f32⟩
  | .hbm, ⟨52, _⟩ => ⟨S_, .f32⟩
  | .hbm, ⟨53, _⟩ => ⟨S8x100x50, .f32⟩
  | .hbm, ⟨54, _⟩ => ⟨S8x100x50, .f32⟩
  | .hbm, ⟨55, _⟩ => ⟨S_, .f32⟩
  | .hbm, ⟨56, _⟩ => ⟨S8x100, .f32⟩
  | .hbm, ⟨57, _⟩ => ⟨S8x100x1, .f32⟩
  | .hbm, ⟨58, _⟩ => ⟨S_, .f32⟩
  | .hbm, ⟨59, _⟩ => ⟨S8x50, .f32⟩
  | .hbm, ⟨60, _⟩ => ⟨S8x1x50, .f32⟩
  | .hbm, ⟨61, _⟩ => ⟨S8x100x50, .f32⟩
  | .hbm, ⟨62, _⟩ => ⟨S8x100x50, .f32⟩
  | .hbm, ⟨63, _⟩ => ⟨S8x100x50, .f32⟩
  | .hbm, ⟨64, _⟩ => ⟨S_, .f32⟩
  | .hbm, ⟨65, _⟩ => ⟨S8x100x50, .f32⟩
  | .hbm, ⟨66, _⟩ => ⟨S8x100x50, .f32⟩
  | .hbm, ⟨67, _⟩ => ⟨S_, .f32⟩
  | .hbm, ⟨68, _⟩ => ⟨S8x100x50, .f32⟩
  | .hbm, ⟨69, _⟩ => ⟨S8x100x50, .f32⟩
  | .hbm, ⟨70, _⟩ => ⟨S8x100x50, .f32⟩
  | .hbm, ⟨71, _⟩ => ⟨S_, .f32⟩
  | .hbm, ⟨72, _⟩ => ⟨S8x100x50, .f32⟩
  | .hbm, ⟨73, _⟩ => ⟨S8x100x50, .f32⟩
  | .hbm, ⟨74, _⟩ => ⟨S_, .f32⟩
  | .hbm, ⟨75, _⟩ => ⟨S8x100x50, .f32⟩
  | .hbm, ⟨76, _⟩ => ⟨S8x100x50, .f32⟩
  | .hbm, ⟨77, _⟩ => ⟨S_, .f32⟩
  | .hbm, ⟨78, _⟩ => ⟨S8x100x50, .f32⟩
  | .hbm, ⟨79, _⟩ => ⟨S8x100x50, .f32⟩
  | .hbm, ⟨80, _⟩ => ⟨S8x100x50, .f32⟩
  | _, _ => ⟨S8x100x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v4 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_8 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩

abbrev nD : Nat := 1
abbrev τ : Topo := Topo.v7x

variable {F : FTy → Type} [FloatOps F]

class Facts₀ : Prop where
  shapeCasts_S8x100x256x256_S8x100x65536 : S8x100x256x256.ShapeCasts S8x100x65536
  shapeCasts_S8x50x256x256_S8x50x65536 : S8x50x256x256.ShapeCasts S8x50x65536
  bcast_S_S8x100x65536 : S_.BroadcastsInDim S8x100x65536 (![] : Fin 0 → Fin S8x100x65536.rank)
  bcast_S_S8x50x65536 : S_.BroadcastsInDim S8x50x65536 (![] : Fin 0 → Fin S8x50x65536.rank)
  bcast_S_S8x100x50 : S_.BroadcastsInDim S8x100x50 (![] : Fin 0 → Fin S8x100x50.rank)
  reducesTo_S8x100x65536_S8x100_d2 : S8x100x65536.ReducesTo [2] S8x100
  h_S_ : 0 < S_.numel
  bcast_S8x100_S8x100x1_0_1 : S8x100.BroadcastsInDim S8x100x1 (![0, 1] : Fin 2 → Fin S8x100x1.rank)
  reducesTo_S8x50x65536_S8x50_d2 : S8x50x65536.ReducesTo [2] S8x50
  bcast_S8x50_S8x1x50_0_2 : S8x50.BroadcastsInDim S8x1x50 (![0, 2] : Fin 2 → Fin S8x1x50.rank)
  bcast_S8x100x1_S8x100x50_0_1_2 : S8x100x1.BroadcastsInDim S8x100x50 (![0, 1, 2] : Fin 3 → Fin S8x100x50.rank)
  bcast_S8x1x50_S8x100x50_0_1_2 : S8x1x50.BroadcastsInDim S8x100x50 (![0, 1, 2] : Fin 3 → Fin S8x100x50.rank)
  dot_S8x100x65536_S8x50x65536_S8x100x50_2_2_1_1_0_0_wf : DotDims.WF S8x100x65536 S8x50x65536 S8x100x50 [2] [2] [1] [1] [0] [0]

variable [Facts₀]

def dot_S8x100x65536_S8x50x65536_S8x100x50_2_2_1_1_0_0 : DotDims S8x100x65536 S8x50x65536 S8x100x50 where
  lhsContracting := [2]
  rhsContracting := [2]
  lhsNonContracting := [1]
  rhsNonContracting := [1]
  lhsBatch := [0]
  rhsBatch := [0]
  wf := dot_S8x100x65536_S8x50x65536_S8x100x50_2_2_1_1_0_0_wf

class Facts : Prop extends Facts₀ where

variable [Facts]
-- ==== Proof.Blocks.lean ====
/-
  The input windows' blocks and the arrays the region finds, read at an index.

  The grid is 8 × 4, walked row-major, so point `t` has coordinates `(t / 4, t % 4)`.  Both input windows take block
  `(t / 4, 0, t % 4)` of their array, of sizes `1 × rows × 16384`: entry `(0, r, j)` of the block at point `t` is entry
  `(t / 4, r, 16384 · (t % 4) + j)` of the array.  The arrays themselves are the launch arguments reshaped
  `[_, _, 256, 256] → [_, _, 65536]`.
-/
import proofs.«151748_j78786880078115_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen ValueIdx

variable {F : FTy → Type} [FloatOps F]
variable (m : (ℓ : Loc nD τ sig) → Buf (Elt F) ℓ)

/-- The first window's block index at point `t` is `(t / 4, 0, t % 4)`. -/
theorem index0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

/-- The second window's block index at point `t` is `(t / 4, 0, t % 4)`. -/
theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

theorem iblk0_apply (c : Dev nD) (t : Fin cfg0.N) (q : Fin 100) (j : Fin 16384) (b : Fin 8) (col : Fin 65536)
    (hb : b.val = t.val / 4) (hcol : col.val = 16384 * (t.val % 4) + j.val) :
    (iblk m c 0 t : Vec F S1x100x16384 .f32) (ix3 0 q j) = (V m c main_v0 : S8x100x65536.Idx → F .f32) (ix3 b q col) := by
  obtain ⟨h0, h1, h2⟩ := index0 t
  unfold iblk
  rw [View.read_apply]
  show V m c main_v0 _ = V m c main_v0 _
  refine congrArg _ ?_
  funext a
  apply Fin.ext
  match a with
  | ⟨0, _⟩ => show win0_0.index t 0 * 1 + 1 * 0 = b.val; rw [h0]; omega
  | ⟨1, _⟩ => show win0_0.index t 1 * 100 + 1 * q.val = q.val; rw [h1]; omega
  | ⟨2, _⟩ => show win0_0.index t 2 * 16384 + 1 * j.val = col.val; rw [h2]; omega

theorem iblk1_apply (c : Dev nD) (t : Fin cfg0.N) (r : Fin 50) (j : Fin 16384) (b : Fin 8) (col : Fin 65536)
    (hb : b.val = t.val / 4) (hcol : col.val = 16384 * (t.val % 4) + j.val) :
    (iblk m c 1 t : Vec F S1x50x16384 .i32) (ix3 0 r j) = (V m c main_v1 : S8x50x65536.Idx → BitVec 32) (ix3 b r col) := by
  obtain ⟨h0, h1, h2⟩ := index1 t
  unfold iblk
  rw [View.read_apply]
  show V m c main_v1 _ = V m c main_v1 _
  refine congrArg _ ?_
  funext a
  apply Fin.ext
  match a with
  | ⟨0, _⟩ => show win0_1.index t 0 * 1 + 1 * 0 = b.val; rw [h0]; omega
  | ⟨1, _⟩ => show win0_1.index t 1 * 50 + 1 * r.val = r.val; rw [h1]; omega
  | ⟨2, _⟩ => show win0_1.index t 2 * 16384 + 1 * j.val = col.val; rw [h2]; omega

theorem V_main_v0_eq (c : Dev nD) :
    (V m c main_v0 : S8x100x65536.Idx → F .f32)
      = shapeCast S8x100x65536 (m ((c : Thread nD τ).loc main_arg0)) Facts₀.shapeCasts_S8x100x256x256_S8x100x65536 := by
  dsimp only [Gen.V, Gen.hostOps0]
  after_results
  rfl

theorem V_main_v1_eq (c : Dev nD) :
    (V m c main_v1 : S8x50x65536.Idx → BitVec 32)
      = shapeCast S8x50x65536 (m ((c : Thread nD τ).loc main_arg1)) Facts₀.shapeCasts_S8x50x256x256_S8x50x65536 := by
  dsimp only [Gen.V, Gen.hostOps0]
  after_results
  rfl

end Cert.KernelIdeal.Blocks

end
-- ==== Proof.CostSpec.lean ====
/-
  The cost matrix of a mask matcher, as one function of a row of logits and a row of targets.

  For a batch element, a query row `x` (65536 logits) and a target row `τ` (65536 numbers) the matrix entry is
      (cross-entropy part) / 65536 + (1 − (2·Σ s·τ + 1) / (Σ s + Σ τ + 1)),
  where `s = sigmoid x`.  Two spellings of it are stated here, entry by entry, over the extended reals:
  `GK` (the cross-entropy part is `Σ softplus x − Σ x·τ`, the sigmoid is `exp (x − softplus x)`) and
  `GR` (the cross-entropy part is `Σ softplus(−x)·τ + Σ softplus x·(1 − τ)`, the sigmoid is `1 / (1 + exp(−x))`).
  The softplus is `max x 0 + log1p (exp (−|x|))` behind a guard `x − 0 ≠ x − 0` that never fires.
  The constants 0, 1, 2 and 65536 are kept as the float words that denote them.
-/
import Idealize.ShloMosaic.PureOps.Ideal
import Idealize.ShloMosaic.Lib.ValueIdx

noncomputable section

open scoped BigOperators

namespace Cert.CostSpec

open Idealize.ShloMosaic Idealize.ShloMosaic.ValueIdx

/-- The float word of `0.0`. -/
abbrev z : EReal := Ideal.ofBits .f32 0x00000000#32
/-- The float word of `1.0`. -/
abbrev one : EReal := Ideal.ofBits .f32 0x3F800000#32
/-- The float word of `2.0`. -/
abbrev two : EReal := Ideal.ofBits .f32 0x40000000#32
/-- The float word of `65536.0`. -/
abbrev hw : EReal := Ideal.ofBits .f32 0x47800000#32

/-- `softplus x = max x 0 + log (1 + exp (0 − |x − 0|))`, behind the guard "`x − 0` differs from itself" (ordered form). -/
def spK (x : EReal) : EReal :=
  Scalar.select (Ideal.cmp .one (x - z) (x - z)) (x + z)
    (max x z + Ideal.log1p (Ideal.exp (z - max (x - z) (-(x - z)))))

/-- The sigmoid as `exp (x − softplus x)`. -/
def sgK (x : EReal) : EReal := Ideal.exp (x - spK x)

/-- `softplus y = max y 0 + log (1 + exp (−|y − 0|))`, behind the guard "`y − 0` differs from itself" (unordered form). -/
def spR (y : EReal) : EReal :=
  Scalar.select (Ideal.cmp .une (y - z) (y - z)) (y + z)
    (max y z + Ideal.log1p (Ideal.exp (-(max (y - z) (-(y - z))))))

/-- The sigmoid as `1 / (1 + exp (−x))`. -/
def sgR (x : EReal) : EReal := Ideal.div one (one + Ideal.exp (-x))

/-- The entry from the five totals of a (query row, target row) pair: `neg = Σ softplus x`, `xt = Σ x·τ`, `st = Σ s·τ`,
    `ss = Σ s`, `ts = Σ τ`. -/
def outK (neg xt st ss ts : EReal) : EReal :=
  one * Ideal.div (neg - xt) hw + one * (one - Ideal.div (two * st + one) ((ss + ts) + one))

/-- The entry from the totals `a = Σ softplus(−x)·τ`, `b = Σ softplus x·(1 − τ)`, `st`, `ss`, `ts`. -/
def outR (a b st ss ts : EReal) : EReal :=
  one * Ideal.div (a + b) hw + one * (one - Ideal.div (two * st + one) ((ss + ts) + one))

variable {ι : Type} [Fintype ι]

/-- The entry of a query row `x` and a target row `τ`, first spelling. -/
def GK (x τ : ι → EReal) : EReal :=
  outK (∑ c, spK (x c)) (∑ c, x c * τ c) (∑ c, sgK (x c) * τ c) (∑ c, sgK (x c)) (∑ c, τ c)

/-- The entry of a query row `x` and a target row `τ`, second spelling. -/
def GR (x τ : ι → EReal) : EReal :=
  outR (∑ c, spR (-(x c)) * τ c) (∑ c, spR (x c) * (one - τ c)) (∑ c, sgR (x c) * τ c) (∑ c, sgR (x c)) (∑ c, τ c)

/-- The whole cost matrix `[8, 100, 50]` of logits `X : [8, 100, 65536]` and integer targets `T : [8, 50, 65536]` (read
    signed): entry `(b, q, t)` is `GK` of row `(b, q)` of `X` and row `(b, t)` of `T`. -/
def G (X : (⟨3, ![8, 100, 65536]⟩ : Shape).Idx → EReal) (T : (⟨3, ![8, 50, 65536]⟩ : Shape).Idx → BitVec 32) :
    (⟨3, ![8, 100, 50]⟩ : Shape).Idx → EReal :=
  fun i => GK (fun c : Fin 65536 => X (ix3 (i 0) (i 1) c)) (fun c : Fin 65536 => (((T (ix3 (i 0) (i 2) c)).toInt : ℝ) : EReal))

end Cert.CostSpec

end
-- ==== Proof.RefValue.lean ====
/-
  The reference program, read entry by entry, is the second spelling `GR` of the cost-matrix entry.

  For the entry `(b, q, t)` write `x c` for the logit of row `(b, q)` at column `c` and `τ c` for the target of row
  `(b, t)` at column `c`, read signed as a real.  The program forms, column by column, `softplus (−x)`, `softplus x`,
  `1 − τ` and `1 / (1 + exp (−x))`, contracts them against `τ` (three sums of products over the 65536 columns), sums
  the sigmoid and the targets over the columns, and combines the five totals exactly as `outR` does.  Each step below
  names one of these pieces; the last puts them together.  Nothing here needs the logits to be finite: both sides are the
  same expression of the extended reals.
-/
import proofs.«151748_j78786880078115_2_alg».proof.Proof.Gen.ReferenceIdeal.Read
import proofs.«151748_j78786880078115_2_alg».proof.Proof.CostSpec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
  Cert.CostSpec

/-- The logits as the program receives them. -/
abbrev Logits := (⟨S8x100x256x256, .f32⟩ : BufTy).Contents (Elt Ideal)
/-- The targets as the program receives them. -/
abbrev Targets := (⟨S8x50x256x256, .i32⟩ : BufTy).Contents (Elt Ideal)

/-! ## The index of column `k` in the row of an entry -/

/-- In the first contraction the left factor is read at column `k` of the logit row `(b, q)` of the entry `i = (b, q, t)`. -/
theorem posX (i : S8x100x50.Idx) (k : Fin 65536) : lidx_main_v6 i k = ix3 (i 0) (i 1) k :=
  funext fun a => Fin.ext (by match a with | ⟨0, _⟩ => rfl | ⟨1, _⟩ => rfl | ⟨2, _⟩ => rfl)

/-- In the first contraction the right factor is read at column `k` of the target row `(b, t)`. -/
theorem posT (i : S8x100x50.Idx) (k : Fin 65536) : ridx_main_v6 i k = ix3 (i 0) (i 2) k :=
  funext fun a => Fin.ext (by match a with | ⟨0, _⟩ => rfl | ⟨1, _⟩ => rfl | ⟨2, _⟩ => rfl)

/-- In the second contraction the left factor is read at column `k` of the logit row `(b, q)`. -/
theorem negX (i : S8x100x50.Idx) (k : Fin 65536) : lidx_main_v9 i k = ix3 (i 0) (i 1) k :=
  funext fun a => Fin.ext (by match a with | ⟨0, _⟩ => rfl | ⟨1, _⟩ => rfl | ⟨2, _⟩ => rfl)

/-- In the second contraction the right factor is read at column `k` of the target row `(b, t)`. -/
theorem negT (i : S8x100x50.Idx) (k : Fin 65536) : ridx_main_v9 i k = ix3 (i 0) (i 2) k :=
  funext fun a => Fin.ext (by match a with | ⟨0, _⟩ => rfl | ⟨1, _⟩ => rfl | ⟨2, _⟩ => rfl)

/-- In the third contraction the left factor is read at column `k` of the logit row `(b, q)`. -/
theorem stX (i : S8x100x50.Idx) (k : Fin 65536) : lidx_main_v19 i k = ix3 (i 0) (i 1) k :=
  funext fun a => Fin.ext (by match a with | ⟨0, _⟩ => rfl | ⟨1, _⟩ => rfl | ⟨2, _⟩ => rfl)

/-- In the third contraction the right factor is read at column `k` of the target row `(b, t)`. -/
theorem stT (i : S8x100x50.Idx) (k : Fin 65536) : ridx_main_v19 i k = ix3 (i 0) (i 2) k :=
  funext fun a => Fin.ext (by match a with | ⟨0, _⟩ => rfl | ⟨1, _⟩ => rfl | ⟨2, _⟩ => rfl)

/-- The row sum of the sigmoid is broadcast `[8,100] → [8,100,1] → [8,100,50]`: at the entry `i` it is read at `(b, q)`. -/
theorem rowX_sum (i : S8x100x50.Idx) (k : Fin 65536) :
    idx_main_v22 (idx_main_v23 (idx_main_v26 i)) k = ix3 (i 0) (i 1) k :=
  funext fun a => Fin.ext (by match a with | ⟨0, _⟩ => rfl | ⟨1, _⟩ => rfl | ⟨2, _⟩ => rfl)

/-- The row sum of the targets is broadcast `[8,50] → [8,1,50] → [8,100,50]`: at the entry `i` it is read at `(b, t)`. -/
theorem rowT_sum (i : S8x100x50.Idx) (k : Fin 65536) :
    idx_main_v24 (idx_main_v25 (idx_main_v27 i)) k = ix3 (i 0) (i 2) k :=
  funext fun a => Fin.ext (by match a with | ⟨0, _⟩ => rfl | ⟨1, _⟩ => rfl | ⟨2, _⟩ => rfl)

/-! ## The columnwise pieces -/

/-- The converted target is the target read signed, as a real. -/
theorem target_eq (x1 : Targets) (j : S8x50x65536.Idx) :
    val_main_v2 (F := Ideal) x1 j = (((val_main_v1 (F := Ideal) x1 j).toInt : ℝ) : EReal) := rfl

/-- The first softplus is taken of the negated logit. -/
theorem softplus_neg_eq (x0 : Logits) (j : S8x100x65536.Idx) :
    val_main_v4 (F := Ideal) x0 j = spR (-(val_main_v0 (F := Ideal) x0 j : EReal)) := by
  rw [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v3_apply]
  rfl

/-- The second softplus is taken of the logit. -/
theorem softplus_eq (x0 : Logits) (j : S8x100x65536.Idx) :
    val_main_v5 (F := Ideal) x0 j = spR (val_main_v0 (F := Ideal) x0 j : EReal) := by
  rw [val_main_v5_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply]
  rfl

/-- The complement of the target, `1 − τ`. -/
theorem one_sub_target_eq (x1 : Targets) (j : S8x50x65536.Idx) :
    val_main_v8 (F := Ideal) x1 j = one - (((val_main_v1 (F := Ideal) x1 j).toInt : ℝ) : EReal) := by
  rw [val_main_v8_apply, val_main_v7_apply]
  rfl

/-- The sigmoid, `1 / (1 + exp (−x))`. -/
theorem sigmoid_eq (x0 : Logits) (j : S8x100x65536.Idx) :
    val_main_v18 (F := Ideal) x0 j = sgR (val_main_v0 (F := Ideal) x0 j : EReal) := by
  rw [val_main_v18_apply, val_main_v17_apply, val_main_v16_apply, val_main_v15_apply, val_main_v14_apply,
    val_main_v13_apply]
  rfl

/-! ## The five totals of an entry -/

section totals

variable (x0 : Logits) (x1 : Targets) (i : S8x100x50.Idx)

/-- The logit row of the entry. -/
abbrev xrow : Fin 65536 → EReal := fun c => val_main_v0 (F := Ideal) x0 (ix3 (i 0) (i 1) c)
/-- The target row of the entry, read signed, as reals. -/
abbrev trow : Fin 65536 → EReal := fun c => (((val_main_v1 (F := Ideal) x1 (ix3 (i 0) (i 2) c)).toInt : ℝ) : EReal)

/-- `Σ softplus (−x) · τ`. -/
theorem total_pos : val_main_v6 (F := Ideal) x0 x1 i = ∑ c, spR (-(xrow x0 i c)) * trow x1 i c := by
  rw [val_main_v6_apply]
  refine Finset.sum_congr rfl fun k _ => ?_
  rw [softplus_neg_eq, target_eq, posX i k, posT i k]
  rfl

/-- `Σ softplus x · (1 − τ)`. -/
theorem total_neg : val_main_v9 (F := Ideal) x0 x1 i = ∑ c, spR (xrow x0 i c) * (one - trow x1 i c) := by
  rw [val_main_v9_apply]
  refine Finset.sum_congr rfl fun k _ => ?_
  rw [softplus_eq, one_sub_target_eq, negX i k, negT i k]
  rfl

/-- `Σ s · τ`. -/
theorem total_st : val_main_v19 (F := Ideal) x0 x1 i = ∑ c, sgR (xrow x0 i c) * trow x1 i c := by
  rw [val_main_v19_apply]
  refine Finset.sum_congr rfl fun k _ => ?_
  rw [sigmoid_eq, target_eq, stX i k, stT i k]
  rfl

/-- `Σ s`: the sum starts from the zero word, which is `0`. -/
theorem total_ss : val_main_v26 (F := Ideal) x0 i = ∑ c, sgR (xrow x0 i c) := by
  rw [val_main_v26_apply, val_main_v23_apply, val_main_v22_apply, val_main_cst_4_apply, Ideal.ofBits_def,
    Ideal.ofBits_zero_f32, zero_add]
  refine Finset.sum_congr rfl fun k _ => ?_
  rw [sigmoid_eq, rowX_sum i k]
  rfl

/-- `Σ τ`: the sum starts from the zero word, which is `0`. -/
theorem total_ts : val_main_v27 (F := Ideal) x1 i = ∑ c, trow x1 i c := by
  rw [val_main_v27_apply, val_main_v25_apply, val_main_v24_apply, val_main_cst_5_apply, Ideal.ofBits_def,
    Ideal.ofBits_zero_f32, zero_add]
  refine Finset.sum_congr rfl fun k _ => ?_
  rw [target_eq, rowT_sum i k]
  rfl

end totals

/-! ## The entry -/

/-- The reference's result at the entry `i = (b, q, t)` is `GR` of the logit row `(b, q)` and the target row `(b, t)`. -/
theorem ref_eq (x0 : (⟨S8x100x256x256, .f32⟩ : BufTy).Contents (Elt Ideal)) (x1 : (⟨S8x50x256x256, .i32⟩ : BufTy).Contents (Elt Ideal))
    (i : S8x100x50.Idx) :
    Cert.ReferenceIdeal.Read.val_main_v40 (F := Ideal) x0 x1 i
      = Cert.CostSpec.GR (fun c : Fin 65536 => Cert.ReferenceIdeal.Read.val_main_v0 (F := Ideal) x0 (ValueIdx.ix3 (i 0) (i 1) c))
          (fun c : Fin 65536 => (((Cert.ReferenceIdeal.Read.val_main_v1 (F := Ideal) x1 (ValueIdx.ix3 (i 0) (i 2) c)).toInt : ℝ) : EReal)) := by
  rw [val_main_v40_apply, val_main_v37_apply, val_main_v39_apply, val_main_v36_apply, val_main_v38_apply,
    val_main_v12_apply, val_main_v35_apply, val_main_v10_apply, val_main_v11_apply, val_main_v34_apply,
    val_main_v33_apply, val_main_v30_apply, val_main_v32_apply, val_main_v21_apply, val_main_v29_apply,
    val_main_v28_apply, val_main_v31_apply, val_main_v20_apply,
    total_pos, total_neg, total_st, total_ss, total_ts]
  rfl

end Cert.ReferenceIdeal.RefValue

end
-- ==== Proof.CostLaw.lean ====
/-
  The two spellings of the cost entry agree on finite rows.

  Write `sp r = max r 0 + log (1 + exp (−|r|))` for the stable form of the softplus `log (1 + exp r)` on the reals.
  At a real argument every guard of the specification is off, every operation stays among the reals, and

    • both softplus spellings take the value `sp r`;
    • `exp (sp r) = 1 + exp r`, hence `exp (r − sp r) = 1 / (1 + exp (−r))`: the two sigmoids are one function;
    • `sp (−r) − sp r = −r`, hence `sp (−r)·t + sp r·(1 − t) = sp r − r·t`: summed over a row, the two
      cross-entropy parts are one number.

  The rest of the entry is the same expression of the same totals on both sides.
-/
import proofs.«151748_j78786880078115_2_alg».proof.Proof.CostSpec

noncomputable section

open scoped BigOperators

namespace Cert.CostLaw

open Idealize.ShloMosaic Idealize.ShloMosaic.ValueIdx Cert.CostSpec

/-! ## The constants -/

/-- The float word of `0.0` denotes the extended real `0`. -/
theorem z_eq : z = 0 := by simp [Ideal.ofBits, Ideal.ieee]

/-- The float word of `1.0` denotes the extended real `1`: sign `+`, exponent field `127`, fraction `0`, that is
    `2^23 · 2^(127 − 127 − 23)`. -/
theorem one_eq : one = 1 := by
  simp [Ideal.ofBits, Ideal.ieee, -EReal.coe_mul]; norm_num

/-! ## The softplus on the reals -/

/-- The stable form of the softplus: `max r 0 + log (1 + exp (−|r|))`. -/
def sp (r : ℝ) : ℝ := max r 0 + Real.log (1 + Real.exp (-|r|))

/-- `exp (sp r) = 1 + exp r`, that is `sp r = log (1 + exp r)`. For `r ≥ 0` it reads
    `exp r · (1 + exp (−r)) = exp r + 1`, for `r ≤ 0` it reads `1 · (1 + exp r) = 1 + exp r`. -/
theorem exp_sp (r : ℝ) : Real.exp (sp r) = 1 + Real.exp r := by
  unfold sp
  have hpos : 0 < 1 + Real.exp (-|r|) := by positivity
  rw [Real.exp_add, Real.exp_log hpos]
  rcases le_total 0 r with h | h
  · rw [max_eq_left h, abs_of_nonneg h, mul_add, mul_one, ← Real.exp_add, add_neg_cancel, Real.exp_zero, add_comm]
  · rw [max_eq_right h, abs_of_nonpos h, neg_neg, Real.exp_zero, one_mul]

/-- `sp (−r) − sp r = −r`: the logarithms are equal (`|−r| = |r|`), and `max (−r) 0 − max r 0 = −r`. -/
theorem sp_neg_sub (r : ℝ) : sp (-r) - sp r = -r := by
  unfold sp
  rw [abs_neg]
  rcases le_total 0 r with h | h
  · rw [max_eq_right (by linarith : -r ≤ 0), max_eq_left h]; ring
  · rw [max_eq_left (by linarith : 0 ≤ -r), max_eq_right h]; ring

/-- The sigmoid in its two forms: `1 / (1 + exp (−r)) = exp (r − sp r)`, both being `exp r / (1 + exp r)`. -/
theorem sigmoid_eq (r : ℝ) : (1 + Real.exp (-r))⁻¹ = Real.exp (r - sp r) := by
  rw [Real.exp_sub, exp_sp, Real.exp_neg]
  have h : 0 < Real.exp r := Real.exp_pos r
  field_simp
  ring

/-- One term of the cross-entropy part: `sp (−r)·t + sp r·(1 − t) = sp r − r·t`. -/
theorem ce_term (r t : ℝ) : sp (-r) * t + sp r * (1 - t) = sp r - r * t := by
  have h : sp (-r) = sp r - r := by linarith [sp_neg_sub r]
  rw [h]; ring

/-! ## The specification's pieces at a real argument -/

/-- "`a` differs from `a`" (ordered form) is the bit `0`. -/
theorem cmp_one_self (a : EReal) : Ideal.cmp .one a a = 0#1 := by
  simp [Ideal.cmp]

/-- "`a` differs from `a`" (unordered form) is the bit `0`. -/
theorem cmp_une_self (a : EReal) : Ideal.cmp .une a a = 0#1 := by
  simp [Ideal.cmp]

/-- The inclusion of the reals in the extended reals is monotone, so it commutes with `max`. -/
theorem coe_max (a b : ℝ) : ((max a b : ℝ) : EReal) = max (a : EReal) (b : EReal) :=
  EReal.coe_strictMono.monotone.map_max

/-- `log1p (exp m) = log (1 + exp m)` at a real `m`, a real since `1 + exp m > 0`. -/
theorem log1p_exp_coe (m : ℝ) :
    Ideal.log1p (Ideal.exp ((m : ℝ) : EReal)) = ((Real.log (1 + Real.exp m) : ℝ) : EReal) := by
  have hpos : (0 : ℝ) < 1 + Real.exp m := by positivity
  rw [Ideal.exp_coe, Ideal.log1p, ← EReal.coe_one, ← EReal.coe_add, Ideal.log_coe, if_neg (not_le.mpr hpos)]

/-- The first softplus spelling at a real `r` is the real `sp r`. -/
theorem spK_coe (r : ℝ) : spK (r : EReal) = ((sp r : ℝ) : EReal) := by
  unfold spK
  rw [cmp_one_self, select_zero, z_eq, sub_zero, zero_sub, ← EReal.coe_neg, ← coe_max, ← EReal.coe_neg,
    log1p_exp_coe, ← EReal.coe_zero, ← coe_max, ← EReal.coe_add, ← abs_eq_max_neg]
  rfl

/-- The second softplus spelling at a real `r` is the real `sp r`. -/
theorem spR_coe (r : ℝ) : spR (r : EReal) = ((sp r : ℝ) : EReal) := by
  unfold spR
  rw [cmp_une_self, select_zero, z_eq, sub_zero, ← EReal.coe_neg, ← coe_max, ← EReal.coe_neg,
    log1p_exp_coe, ← EReal.coe_zero, ← coe_max, ← EReal.coe_add, ← abs_eq_max_neg]
  rfl

/-- The first sigmoid spelling at a real `r` is the real `exp (r − sp r)`. -/
theorem sgK_coe (r : ℝ) : sgK (r : EReal) = ((Real.exp (r - sp r) : ℝ) : EReal) := by
  unfold sgK
  rw [spK_coe, ← EReal.coe_sub, Ideal.exp_coe]

/-- The second sigmoid spelling at a real `r` is the same real: `1 + exp (−r)` is a nonzero real, so the
    quotient is the product with its reciprocal. -/
theorem sgR_coe (r : ℝ) : sgR (r : EReal) = ((Real.exp (r - sp r) : ℝ) : EReal) := by
  unfold sgR
  have hpos : (0 : ℝ) < 1 + Real.exp (-r) := by positivity
  rw [one_eq, ← EReal.coe_neg, Ideal.exp_coe, ← EReal.coe_one, ← EReal.coe_add, Ideal.div_coe hpos.ne',
    ← EReal.coe_mul, one_mul, one_div, sigmoid_eq]

/-! ## Finite sums of reals -/

/-- The inclusion of the reals in the extended reals commutes with a finite sum. -/
theorem finset_sum_coe {ι : Type} (s : Finset ι) (f : ι → ℝ) :
    (∑ c ∈ s, ((f c : ℝ) : EReal)) = ((∑ c ∈ s, f c : ℝ) : EReal) := by
  classical
  induction s using Finset.induction_on with
  | empty => simp
  | insert a s ha ih => rw [Finset.sum_insert ha, Finset.sum_insert ha, EReal.coe_add, ih]

/-- The same over a whole finite index type. -/
theorem sum_coe {ι : Type} [Fintype ι] (f : ι → ℝ) : (∑ c, ((f c : ℝ) : EReal)) = ((∑ c, f c : ℝ) : EReal) :=
  finset_sum_coe Finset.univ f

/-! ## The entry -/

/-- On a row of real logits and a row of real targets the two spellings of the entry agree: the sigmoid totals are
    equal term by term, and the cross-entropy totals satisfy
    `Σ sp (−x)·τ + Σ sp x·(1 − τ) = Σ (sp x − x·τ) = Σ sp x − Σ x·τ` among the reals. -/
theorem GR_eq_GK {ι : Type} [Fintype ι] (x τ : ι → EReal)
    (hx : ∀ c, ∃ r : ℝ, x c = (r : EReal)) (hτ : ∀ c, ∃ r : ℝ, τ c = (r : EReal)) :
    Cert.CostSpec.GR x τ = Cert.CostSpec.GK x τ := by
  choose xr hxr using hx
  choose tr htr using hτ
  have hx' : x = fun c => ((xr c : ℝ) : EReal) := funext hxr
  have hτ' : τ = fun c => ((tr c : ℝ) : EReal) := funext htr
  subst hx' hτ'
  have hsg : ∀ c, sgR ((xr c : ℝ) : EReal) = sgK ((xr c : ℝ) : EReal) := fun c => by rw [sgR_coe, sgK_coe]
  have hA : (∑ c, spR (-((xr c : ℝ) : EReal)) * ((tr c : ℝ) : EReal)) = ((∑ c, sp (-xr c) * tr c : ℝ) : EReal) := by
    rw [← sum_coe]
    refine Finset.sum_congr rfl fun c _ => ?_
    rw [← EReal.coe_neg, spR_coe, EReal.coe_mul]
  have hB : (∑ c, spR ((xr c : ℝ) : EReal) * (one - ((tr c : ℝ) : EReal)))
      = ((∑ c, sp (xr c) * (1 - tr c) : ℝ) : EReal) := by
    rw [← sum_coe]
    refine Finset.sum_congr rfl fun c _ => ?_
    rw [spR_coe, one_eq, EReal.coe_mul, EReal.coe_sub, EReal.coe_one]
  have hN : (∑ c, spK ((xr c : ℝ) : EReal)) = ((∑ c, sp (xr c) : ℝ) : EReal) := by
    rw [← sum_coe]
    exact Finset.sum_congr rfl fun c _ => spK_coe (xr c)
  have hXT : (∑ c, ((xr c : ℝ) : EReal) * ((tr c : ℝ) : EReal)) = ((∑ c, xr c * tr c : ℝ) : EReal) := by
    rw [← sum_coe]
    exact Finset.sum_congr rfl fun c _ => (EReal.coe_mul _ _).symm
  have hce : (∑ c, sp (-xr c) * tr c) + (∑ c, sp (xr c) * (1 - tr c)) = (∑ c, sp (xr c)) - (∑ c, xr c * tr c) := by
    rw [← Finset.sum_add_distrib, ← Finset.sum_sub_distrib]
    exact Finset.sum_congr rfl fun c _ => ce_term (xr c) (tr c)
  unfold GR GK outR outK
  rw [hA, hB, hN, hXT, ← EReal.coe_add, ← EReal.coe_sub, hce]
  simp only [hsg]

end Cert.CostLaw

end
-- ==== Proof.Finite.lean ====
/-
  Finiteness of the logits from the precondition.

  The precondition is the conjunction, over every entry `x` of the logits, of the comparison `|x| < +∞`, where `|x|` is
  `max x (-x)` over the extended reals and `+∞` is the float word `0x7F800000`.  When a conjunction holds, every
  conjunct holds; an extended real `x` with `max x (-x) < ⊤` is neither `⊤` (then `max x (-x) = ⊤`) nor `⊥` (then
  `-x = ⊤`), hence a real number.
-/
import proofs.«151748_j78786880078115_2_alg».proof.Pre_finite_inputs
import proofs.«151748_j78786880078115_2_alg».proof.Proof.Gen.Pre_finite_inputs
import Idealize.ShloMosaic.Lib.ReduceAll
import Idealize.ShloMosaic.Lib.ValueIdx
import Idealize.ShloMosaic.PureOps.Ideal

namespace Cert.Finite

open Idealize.ShloMosaic

/-- The float word `0x7F800000` denotes `+∞`. -/
theorem inf_word : Ideal.ofBits .f32 0x7F800000#32 = (⊤ : EReal) := by
  simp [Ideal.ofBits, Ideal.ieee]

/-- An extended real whose absolute value `max x (-x)` lies strictly below `⊤` is a real number:
    at `x = ⊥` the second argument `-x` is `⊤`, at `x = ⊤` the first is. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison "less than" answers the word 1 only when its left argument is below its right one. -/
theorem lt_of_cmp_olt (a b : EReal) (h : Ideal.cmp .olt a b = 1#1) : a < b := by
  unfold Ideal.cmp at h
  by_contra hc
  simp [hc] at h

/-- The result shape of a reduction over all axes has exactly one index. -/
instance : Subsingleton Cert.Pre_finite_inputs.S_.Idx := ⟨fun a b => funext fun d => d.elim0⟩

/-- If the precondition holds (its one result word is 1) then every logit is a real number. -/
theorem real_of_pre [Cert.Pre_finite_inputs.Facts]
    (x0 : FVec Ideal Cert.Pre_finite_inputs.S8x100x256x256 .f32) (x1 : IVec Cert.Pre_finite_inputs.S8x50x256x256 32)
    (h : Cert.Pre_finite_inputs.fn (F := Ideal) x0 x1 = fun _ => 1#1) :
    ∀ i : Cert.Pre_finite_inputs.S8x100x256x256.Idx, ∃ r : ℝ, x0 i = (r : EReal) := by
  intro i
  -- the one result word of the conjunction is 1
  have h0 := congrFun h ValueIdx.ix0
  dsimp only [Cert.Pre_finite_inputs.fn] at h0
  -- so the conjunct of entry `i` is 1
  have hi := Host.reduce_andi_all _ _ _ _ _ h0 i
  -- and that conjunct is the comparison `max (x0 i) (-(x0 i)) < +∞`
  have hlt : max (x0 i) (-(x0 i)) < (⊤ : EReal) := by
    have := lt_of_cmp_olt (max (x0 i) (-(x0 i))) (Ideal.ofBits .f32 0x7F800000#32) hi
    rwa [inf_word] at this
  exact real_of_abs_lt_top (x0 i) hlt

end Cert.Finite
-- ==== Proof.Bridge.lean ====
/-
  Under the precondition, the reference's result is the cost matrix `G` of the reshaped arguments.

  Entry by entry the reference's result is the second spelling `GR` of the entry, taken of a row of the reshaped logits
  and a row of the reshaped targets read signed as reals. The precondition makes every logit a real number, and a
  reshape only moves entries, so every entry of a row of the reshaped logits is a real number; a target read as a real is
  one by construction. On real rows the second spelling equals the first, `GK`, and `G` is by definition `GK` of those
  two rows.
-/
import proofs.«151748_j78786880078115_2_alg».proof.Proof.RefValue
import proofs.«151748_j78786880078115_2_alg».proof.Proof.CostLaw
import proofs.«151748_j78786880078115_2_alg».proof.Proof.Finite
import proofs.«151748_j78786880078115_2_alg».proof.Proof.Gen.ReferenceIdeal.Read
import proofs.«151748_j78786880078115_2_alg».proof.Proof.Gen.Pre_finite_inputs
import proofs.«151748_j78786880078115_2_alg».proof.Proof.Gen.ReferenceIdeal

noncomputable section

namespace Cert.Bridge

open Idealize.ShloMosaic

/-- Under the precondition every entry of the reshaped logits is a real number: it is an entry of the logits. -/
theorem reshaped_real (x0 : (⟨Cert.ReferenceIdeal.S8x100x256x256, .f32⟩ : BufTy).Contents (Elt Ideal))
    (x1 : (⟨Cert.ReferenceIdeal.S8x50x256x256, .i32⟩ : BufTy).Contents (Elt Ideal))
    (h : Cert.Pre_finite_inputs.fn (F := Ideal) x0 x1 = fun _ => 1#1) (j : Cert.ReferenceIdeal.S8x100x65536.Idx) :
    ∃ r : ℝ, Cert.ReferenceIdeal.Read.val_main_v0 (F := Ideal) x0 j = (r : EReal) := by
  rw [Cert.ReferenceIdeal.Read.val_main_v0_apply]
  exact Cert.Finite.real_of_pre x0 x1 h _

/-- Under the precondition the reference's result is `G` of the reshaped logits and the reshaped targets. -/
theorem ref_is_G (x0 : (⟨Cert.ReferenceIdeal.S8x100x256x256, .f32⟩ : BufTy).Contents (Elt Ideal))
    (x1 : (⟨Cert.ReferenceIdeal.S8x50x256x256, .i32⟩ : BufTy).Contents (Elt Ideal))
    (h : Cert.Pre_finite_inputs.fn (F := Ideal) x0 x1 = fun _ => 1#1) :
    Cert.ReferenceIdeal.Read.val_main_v40 (F := Ideal) x0 x1
      = Cert.CostSpec.G (Cert.ReferenceIdeal.Read.val_main_v0 (F := Ideal) x0)
          (Cert.ReferenceIdeal.Read.val_main_v1 (F := Ideal) x1) := by
  funext i
  rw [Cert.ReferenceIdeal.RefValue.ref_eq,
    Cert.CostLaw.GR_eq_GK _ _ (fun c => reshaped_real x0 x1 h _) (fun c => ⟨_, rfl⟩)]
  rfl

end Cert.Bridge

end
-- ==== Proof.Claims.lean ====
/-
  The certificate's five claims, put together.

  Three of them say only that a program runs to the end and leaves its argument arrays as they were: for the kernel,
  at either reading of its floats, that is the generated frame; for the reference it is its generated run with the
  result forgotten.  The fourth, that the idealized kernel is the kernel's sanctioned idealization, has nothing to
  show: no operation was rewritten.

  The fifth says that over the extended reals the kernel and the reference end with the same cost matrix.  Both are
  compared with one function of the argument arrays, `G`: entry (b, q, t) is the cost of row (b, q) of the logits,
  reshaped [8, 100, 256, 256] → [8, 100, 65536], against row (b, t) of the targets, reshaped likewise and read as signed
  integers.  That the kernel's output array is `G` of the two reshaped arrays is taken here as a hypothesis; that the
  reference's result is `G` of them, for finite logits, is the bridge theorem.  The arrays the kernel's region finds
  are exactly those reshapes of the launch arguments, and the two programs are launched on equal arguments, so the
  two results are the same function.
-/
import proofs.«151748_j78786880078115_2_alg».proof.Defs
import proofs.«151748_j78786880078115_2_alg».proof.Proof.Gen.Kernel.Frame
import proofs.«151748_j78786880078115_2_alg».proof.Proof.Gen.KernelIdeal.Value
import proofs.«151748_j78786880078115_2_alg».proof.Proof.Gen.ReferenceIdeal.Read
import proofs.«151748_j78786880078115_2_alg».proof.Proof.Gen.Pre_finite_inputs
import proofs.«151748_j78786880078115_2_alg».proof.Proof.Blocks
import proofs.«151748_j78786880078115_2_alg».proof.Proof.Bridge
import proofs.«151748_j78786880078115_2_alg».proof.Proof.CostSpec

noncomputable section

open Idealize.ShloMosaic Idealize.ShloMosaic.TcCoe Idealize.SL.Sem

namespace Cert.Proof.Claims

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- If the kernel's output array is the cost matrix `G` of the two arrays its region finds, then kernel and
    reference, launched on equal arguments with finite logits, end with equal results and unchanged arguments. -/
theorem algebraic
    (hfinal : ∀ (m : (ℓ : Loc Cert.KernelIdeal.nD Cert.KernelIdeal.τ Cert.KernelIdeal.sig) → Buf (Elt Ideal) ℓ)
        (c : Dev Cert.KernelIdeal.nD),
        (Cert.KernelIdeal.Gen.dats m 0 c).arrAt 2 Cert.KernelIdeal.cfg0.N
          = Cert.CostSpec.G
              (Cert.KernelIdeal.Gen.V m c Cert.KernelIdeal.main_v0 : Cert.KernelIdeal.S8x100x65536.Idx → EReal)
              (Cert.KernelIdeal.Gen.V m c Cert.KernelIdeal.main_v1 : Cert.KernelIdeal.S8x50x65536.Idx → BitVec 32)) :
    Cert.algebraic_KernelIdeal_ReferenceIdeal := by
  intro m ρ m' ρ' hpre hagree
  refine ⟨fun c => Cert.CostSpec.G
      (Cert.KernelIdeal.Gen.V m c Cert.KernelIdeal.main_v0 : Cert.KernelIdeal.S8x100x65536.Idx → EReal)
      (Cert.KernelIdeal.Gen.V m c Cert.KernelIdeal.main_v1 : Cert.KernelIdeal.S8x50x65536.Idx → BitVec 32), ?_, ?_⟩
  · exact (θ_run Cert.KernelIdeal.defs _ _).mono (fun r h c => ⟨(h c).1.trans (hfinal m c), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    show r.2.mem ((c.tc : Thread Cert.ReferenceIdeal.nD Cert.ReferenceIdeal.τ).loc Cert.ReferenceIdeal.main_v40)
      = Cert.CostSpec.G
          (Cert.KernelIdeal.Gen.V m c Cert.KernelIdeal.main_v0 : Cert.KernelIdeal.S8x100x65536.Idx → EReal)
          (Cert.KernelIdeal.Gen.V m c Cert.KernelIdeal.main_v1 : Cert.KernelIdeal.S8x50x65536.Idx → BitVec 32)
    rw [(h c).1, Cert.ReferenceIdeal.Read.val_main_v40_eq, (hagree c).1, (hagree c).2,
      Cert.Bridge.ref_is_G _ _ (hpre c), Cert.KernelIdeal.Blocks.V_main_v0_eq m c, Cert.KernelIdeal.Blocks.V_main_v1_eq m c]
    rfl

end Cert.Proof.Claims

end
-- ==== Proof.Cover.lean ====
/-
  From what the last column tile of each batch leaves to the whole result array.

  The grid is `[8, 4]`: point `t` works on batch `t / 4` and on column tile `t % 4`.  The result `[8, 100, 50]` is
  written back in blocks `[1, 100, 50]`, block `b` being the matrix of batch `b`, and a block is written back only at
  the last column tile of its batch, the points with `t % 4 = 3`.  So the eight writing points `4·b + 3` tile the
  array: entry `(b, q, r)` lies in the block of point `4·b + 3` and in no other.  Hence, if at every such point the
  staged block holds at `(0, q, r)` the value `Gf (b, q, r)` of one function `Gf` of the whole array, the array
  ends holding `Gf`.  Nothing here looks at how the staged block was computed, nor at the element type's arithmetic.
-/
import proofs.«151748_j78786880078115_2_alg».proof.Proof.Gen.KernelIdeal.Value
import Idealize.ShloMosaic.Lib.Pipeline.Value
import Idealize.ShloMosaic.Lib.ValueIdx

noncomputable section

namespace Cert.KernelIdeal.Cover

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable {F : FTy → Type} [FloatOps F]
variable (m : (ℓ : Loc nD τ sig) → Buf (Elt F) ℓ)

/-- The result's block index at point `t` is `(t / 4, 0, 0)`: the batch of the point, and the one block of its matrix. -/
theorem block_index : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- An entry of the array is in point `t`'s block iff each coordinate is in the block's range on its axis. -/
theorem mem_block (t : Fin cfg0.N) (i : S8x100x50.Idx) :
    i ∈ ((cfg0.win 2).blk t).view.set ↔ ∀ a : Fin 3, win0_2.index t a * S1x100x50.size a ≤ (i a).val
      ∧ (i a).val < win0_2.index t a * S1x100x50.size a + S1x100x50.size a := by
  show i ∈ ((View.whole main_v2).slice (win0_2.rect t)).set ↔ _
  rw [View.set_slice_whole, Rect.mem_set_unit]
  exact Iff.rfl

/-- Every entry `(b, q, r)` is in the block of the writing point `4·b + 3`. -/
theorem covered (i : S8x100x50.Idx) :
    ∃ t : Fin cfg0.N, (cfg0.win 2).flush t = true ∧ i ∈ ((cfg0.win 2).blk t).view.set := by
  have hi0 : (i 0).val < 8 := (i 0).isLt
  have hi1 : (i 1).val < 100 := (i 1).isLt
  have hi2 : (i 2).val < 50 := (i 2).isLt
  have hN : 4 * (i 0).val + 3 < cfg0.N := by
    show 4 * (i 0).val + 3 < grid0.N
    rw [N_0]; omega
  obtain ⟨e0, e1, e2⟩ := block_index ⟨4 * (i 0).val + 3, hN⟩
  have e0' : win0_2.index ⟨4 * (i 0).val + 3, hN⟩ (0 : Fin 3) = (4 * (i 0).val + 3) / 4 := e0
  refine ⟨⟨4 * (i 0).val + 3, hN⟩, (flush0_2 _).mpr (by show (4 * (i 0).val + 3) % 4 = 3; omega), ?_⟩
  rw [mem_block]
  intro a
  match a with
  | ⟨0, _⟩ =>
    show win0_2.index ⟨4 * (i 0).val + 3, hN⟩ (0 : Fin 3) * 1 ≤ (i 0).val
      ∧ (i 0).val < win0_2.index ⟨4 * (i 0).val + 3, hN⟩ (0 : Fin 3) * 1 + 1
    omega
  | ⟨1, _⟩ =>
    show win0_2.index ⟨4 * (i 0).val + 3, hN⟩ (1 : Fin 3) * 100 ≤ (i 1).val
      ∧ (i 1).val < win0_2.index ⟨4 * (i 0).val + 3, hN⟩ (1 : Fin 3) * 100 + 100
    omega
  | ⟨2, _⟩ =>
    show win0_2.index ⟨4 * (i 0).val + 3, hN⟩ (2 : Fin 3) * 50 ≤ (i 2).val
      ∧ (i 2).val < win0_2.index ⟨4 * (i 0).val + 3, hN⟩ (2 : Fin 3) * 50 + 50
    omega

/-- What a writing point writes back is its block of `Gf`, when the staged block agrees with `Gf` on the point's batch. -/
theorem written_eq (c : Dev nD) (Gf : S8x100x50.Idx → Elt F .f32)
    (hlast : ∀ (t : Fin cfg0.N), t.val % 4 = 3 → ∀ (b : Fin 8), b.val = t.val / 4 → ∀ (q : Fin 100) (r : Fin 50),
        ((outsAt0 m c t.val t.isLt).1 : S1x100x50.Idx → Elt F .f32) (ix3 0 q r) = Gf (ix3 b q r))
    (t : Fin cfg0.N) (hf : (cfg0.win 2).flush t = true) :
    (dats m 0 c).flushed 2 t = ((cfg0.win 2).blk t).view.read (Elt F) Gf := by
  rw [flushed2]
  have h3 : t.val % 4 = 3 := (flush0_2 t).mp hf
  have hN : t.val < 32 := lt_of_lt_of_eq t.isLt (show cfg0.N = 32 from N_0)
  obtain ⟨e0, e1, e2⟩ := block_index t
  funext y
  have hy0 : (y 0).val < 1 := (y 0).isLt
  have hy1 : (y 1).val < 100 := (y 1).isLt
  have hy2 : (y 2).val < 50 := (y 2).isLt
  show (outsAt0 m c t.val t.isLt).1 ((cfg0.win 2).xinj (grid0.coords t) y) = Gf (((cfg0.win 2).blk t).view.emb y)
  have hl : (cfg0.win 2).xinj (grid0.coords t) y = ix3 (0 : Fin 1) (⟨(y 1).val, hy1⟩ : Fin 100) (⟨(y 2).val, hy2⟩ : Fin 50) := by
    funext a; apply Fin.ext
    match a with
    | ⟨0, _⟩ => show (y 0).val = 0; omega
    | ⟨1, _⟩ => rfl
    | ⟨2, _⟩ => rfl
  have hr : ((cfg0.win 2).blk t).view.emb y
      = ix3 (⟨t.val / 4, by omega⟩ : Fin 8) (⟨(y 1).val, hy1⟩ : Fin 100) (⟨(y 2).val, hy2⟩ : Fin 50) := by
    funext a; apply Fin.ext
    match a with
    | ⟨0, _⟩ => show win0_2.index t (0 : Fin 3) * 1 + 1 * (y 0).val = t.val / 4; omega
    | ⟨1, _⟩ => show win0_2.index t (1 : Fin 3) * 100 + 1 * (y 1).val = (y 1).val; omega
    | ⟨2, _⟩ => show win0_2.index t (2 : Fin 3) * 50 + 1 * (y 2).val = (y 2).val; omega
  exact (congrArg (outsAt0 m c t.val t.isLt).1 hl).trans
    ((hlast t h3 ⟨t.val / 4, by omega⟩ rfl ⟨(y 1).val, hy1⟩ ⟨(y 2).val, hy2⟩).trans (congrArg Gf hr.symm))

/-- The array after the run is `Gf`, when at the last column tile of every batch `b` the staged block holds
    `Gf (b, q, r)` at `(0, q, r)`. -/
theorem final_of_last (c : Dev nD) (Gf : S8x100x50.Idx → Elt F .f32)
    (hlast : ∀ (t : Fin cfg0.N), t.val % 4 = 3 → ∀ (b : Fin 8), b.val = t.val / 4 → ∀ (q : Fin 100) (r : Fin 50),
        ((outsAt0 m c t.val t.isLt).1 : S1x100x50.Idx → Elt F .f32) (ix3 0 q r) = Gf (ix3 b q r)) :
    (dats m 0 c).arrAt 2 cfg0.N = Gf :=
  (dats m 0 c).arrAt_eq_of_cover 2 Gf (fun t hf => written_eq m c Gf hlast t hf) covered

end Cert.KernelIdeal.Cover

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.PayIdx.lean ====
/-
  The kernel body's stored values, read one element at a time over the extended reals.

  Every value the body stores is a pure function of the values it loaded.  Read at one index of the stored
  vector, each is an expression in finitely many elements of the loaded vectors:

  * the five reset values are 0 everywhere;
  * the two products of a [100, 16384] matrix with the transpose of the [50, 16384] target block add to the old
    accumulator, at (q, t), the sum over the 16384 columns c of (left factor at (q, c)) · (target at (t, c)), where
    the left factor is the logit itself or its sigmoid exp (x − softplus x);
  * the three lane sums add to the old column accumulator, at row q (or t), the sum over the 16384 columns of the
    softplus, of the sigmoid, or of the target;
  * the final value at (q, t) is the cost entry `outK` of the five totals neg q, xt (q, t), st (q, t), ss q, ts t.

  The target block holds integers; each is read signed and turned into the real number it denotes.  A change of
  float format is the identity on extended reals, a shape cast keeps the row-major position, a broadcast repeats
  along the new axis, and a transpose swaps the two coordinates: these are what the lemmas below say, one for each
  operation that is not element by element.
-/
import proofs.«151748_j78786880078115_2_alg».proof.Proof.Gen.KernelIdeal.Skeleton
import proofs.«151748_j78786880078115_2_alg».proof.Proof.CostSpec
import proofs.«151748_j78786880078115_2_alg».proof.Proof.LibColumn
import proofs.«151748_j78786880078115_2_alg».proof.Proof.LibColumnCast
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Cert.CostSpec Idealize.ShloMosaic Idealize.ShloMosaic.ValueIdx

variable [Cert.KernelIdeal.Facts]

/-! ## The reset values -/

/-- The [100, 50] reset value is 0 at every index. -/
theorem pay6_apply (j : S100x50.Idx) : k0_pay6 (F := Ideal) j = 0 := by
  unfold k0_pay6
  rw [shapeCast_self]
  exact Ideal.ofBits_zero_f32

/-- The second [100, 50] reset value is 0 at every index. -/
theorem pay7_apply (j : S100x50.Idx) : k0_pay7 (F := Ideal) j = 0 := by
  unfold k0_pay7
  rw [shapeCast_self]
  exact Ideal.ofBits_zero_f32

/-- The [100, 1] reset value is 0 at every index. -/
theorem pay8_apply (j : S100x1.Idx) : k0_pay8 (F := Ideal) j = 0 := by
  unfold k0_pay8
  rw [shapeCast_self]
  exact Ideal.ofBits_zero_f32

/-- The second [100, 1] reset value is 0 at every index. -/
theorem pay9_apply (j : S100x1.Idx) : k0_pay9 (F := Ideal) j = 0 := by
  unfold k0_pay9
  rw [shapeCast_self]
  exact Ideal.ofBits_zero_f32

/-- The [50, 1] reset value is 0 at every index. -/
theorem pay10_apply (j : S50x1.Idx) : k0_pay10 (F := Ideal) j = 0 := by
  unfold k0_pay10
  rw [shapeCast_self]
  exact Ideal.ofBits_zero_f32

/-! ## The loaded blocks as matrices -/

/-- The logit block [1, 100, 16384] viewed as a matrix reads, at (q, c), the block at (0, q, c). -/
theorem pay11_apply (x0 : Vec Ideal S1x100x16384 .f32) (q : Fin 100) (c : Fin 16384) :
    k0_pay11 (F := Ideal) x0 (ix2 q c) = x0 (ix3 0 q c) := by
  unfold k0_pay11
  exact shapeCast_1ab_ab_apply x0 _ q c

/-- The target block [1, 50, 16384] viewed as a matrix of reals reads, at (t, c), the integer at (0, t, c), signed. -/
theorem pay12_apply (x1 : Vec Ideal S1x50x16384 .i32) (t : Fin 50) (c : Fin 16384) :
    k0_pay12 (F := Ideal) x1 (ix2 t c) = (((x1 (ix3 0 t c)).toInt : ℝ) : EReal) := by
  unfold k0_pay12
  rw [sitofp_apply, shapeCast_1ab_ab_apply x1 _ t c]
  rfl

/-- The softplus payload is the softplus `spK` of the logit, element by element. -/
theorem pay13_apply (x0 : Vec Ideal S1x100x16384 .f32) (q : Fin 100) (c : Fin 16384) :
    k0_pay13 (F := Ideal) x0 (ix2 q c) = spK (x0 (ix3 0 q c)) := by
  rw [← pay11_apply x0 q c]
  rfl

/-- The sigmoid payload is `sgK` of the logit, element by element. -/
theorem pay14_apply (x0 : Vec Ideal S1x100x16384 .f32) (q : Fin 100) (c : Fin 16384) :
    k0_pay14 (F := Ideal) x0 (ix2 q c) = sgK (x0 (ix3 0 q c)) := by
  show Ideal.exp (k0_pay11 (F := Ideal) x0 (ix2 q c) - k0_pay13 (F := Ideal) x0 (ix2 q c)) = sgK (x0 (ix3 0 q c))
  rw [pay11_apply, pay13_apply]
  rfl

/-- The target block in the narrower float format is still the integer's real number. -/
theorem pay15_apply (x1 : Vec Ideal S1x50x16384 .i32) (t : Fin 50) (c : Fin 16384) :
    k0_pay15 (F := Ideal) x1 (ix2 t c) = (((x1 (ix3 0 t c)).toInt : ℝ) : EReal) := by
  unfold k0_pay15
  rw [truncf_apply, pay12_apply]

/-! ## The product with the transposed target block -/

/-- In that product the left factor's row is the result's row … -/
theorem lhsIdx_row (i : S100x50.Idx) (k : dot_S100x16384_S50x16384_S100x50_1_1_0_0_n_n.contr.Idx) :
    (dot_S100x16384_S50x16384_S100x50_1_1_0_0_n_n.lhsIdx i k 0).val = (i 0).val := by
  unfold DotDims.lhsIdx
  rw [dif_neg (show ¬(0 : Fin S100x16384.rank) ∈ dot_S100x16384_S50x16384_S100x50_1_1_0_0_n_n.lhsBatch by decide),
    dif_pos (show (0 : Fin S100x16384.rank) ∈ dot_S100x16384_S50x16384_S100x50_1_1_0_0_n_n.lhsNonContracting by decide)]
  rfl

/-- … its column is the summation index … -/
theorem lhsIdx_col (i : S100x50.Idx) (k : dot_S100x16384_S50x16384_S100x50_1_1_0_0_n_n.contr.Idx) :
    (dot_S100x16384_S50x16384_S100x50_1_1_0_0_n_n.lhsIdx i k 1).val = (k ⟨0, by decide⟩).val :=
  dot_S100x16384_S50x16384_S100x50_1_1_0_0_n_n.lhsIdx_val_of_single rfl i k

/-- … the right factor's row is the result's column … -/
theorem rhsIdx_row (i : S100x50.Idx) (k : dot_S100x16384_S50x16384_S100x50_1_1_0_0_n_n.contr.Idx) :
    (dot_S100x16384_S50x16384_S100x50_1_1_0_0_n_n.rhsIdx i k 0).val = (i 1).val := by
  unfold DotDims.rhsIdx
  rw [dif_neg (show ¬(0 : Fin S50x16384.rank) ∈ dot_S100x16384_S50x16384_S100x50_1_1_0_0_n_n.rhsBatch by decide),
    dif_pos (show (0 : Fin S50x16384.rank) ∈ dot_S100x16384_S50x16384_S100x50_1_1_0_0_n_n.rhsNonContracting by decide)]
  rfl

/-- … and its column is the summation index too. -/
theorem rhsIdx_col (i : S100x50.Idx) (k : dot_S100x16384_S50x16384_S100x50_1_1_0_0_n_n.contr.Idx) :
    (dot_S100x16384_S50x16384_S100x50_1_1_0_0_n_n.rhsIdx i k 1).val = (k ⟨0, by decide⟩).val :=
  dot_S100x16384_S50x16384_S100x50_1_1_0_0_n_n.rhsIdx_val_of_single rfl i k

/-- The product of a [100, 16384] matrix with the transpose of a [50, 16384] matrix, accumulated into the zero
    matrix, reads at (q, t) the sum over the shared column c of the two factors at (q, c) and (t, c). -/
theorem matmul_zero_apply (A : FVec Ideal S100x16384 .bf16) (B : FVec Ideal S50x16384 .bf16) (q : Fin 100) (t : Fin 50) :
    matmul dot_S100x16384_S50x16384_S100x50_1_1_0_0_n_n none A B (constant (F := Ideal) S100x50 .f32 0x00000000#32) (ix2 q t)
      = ∑ c : Fin 16384, A (ix2 q c) * B (ix2 t c) := by
  simp only [matmul]
  rw [Ideal.matmul_constant_zero_apply,
    ← Equiv.sum_comp (contrEquiv1 dot_S100x16384_S50x16384_S100x50_1_1_0_0_n_n 16384 rfl rfl).symm]
  refine Finset.sum_congr rfl fun k _ => ?_
  have hk := contrEquiv1_symm_val dot_S100x16384_S50x16384_S100x50_1_1_0_0_n_n 16384 rfl rfl k
  have el : dot_S100x16384_S50x16384_S100x50_1_1_0_0_n_n.lhsIdx (ix2 q t)
      ((contrEquiv1 dot_S100x16384_S50x16384_S100x50_1_1_0_0_n_n 16384 rfl rfl).symm k) = ix2 q k :=
    funext fun a => Fin.ext (by
      match a with
      | ⟨0, _⟩ => exact lhsIdx_row _ _
      | ⟨1, _⟩ => exact (lhsIdx_col _ _).trans hk)
  have er : dot_S100x16384_S50x16384_S100x50_1_1_0_0_n_n.rhsIdx (ix2 q t)
      ((contrEquiv1 dot_S100x16384_S50x16384_S100x50_1_1_0_0_n_n 16384 rfl rfl).symm k) = ix2 t k :=
    funext fun a => Fin.ext (by
      match a with
      | ⟨0, _⟩ => exact rhsIdx_row _ _
      | ⟨1, _⟩ => exact (rhsIdx_col _ _).trans hk)
  rw [el, er]

/-! ## A lane sum -/

/-- The sum along the rows of an [n, 16384] matrix, started from the zero word, reads at row r the sum of that row. -/
theorem laneSum_apply {n : ℕ} (v : FVec Ideal ⟨2, ![n, 16384]⟩ .f32)
    (h : (⟨2, ![n, 16384]⟩ : Shape).Reduces [1] ⟨1, ![n]⟩) (hφ : FKind.Formats .f32)
    (hacc : (0x00000000#32 : BitVec 32) = 0x00000000#32) (r : Fin n) :
    multiReduction (F := Ideal) .add [1] ⟨1, ![n]⟩ v 0x00000000#32 h hφ hacc (ix1 r) = ∑ c : Fin 16384, v (ix2 r c) := by
  refine (Ideal.multiReduction_add_single v 0x00000000#32 h hφ hacc (ix1 r)).trans ?_
  refine Finset.sum_congr rfl fun c _ => congrArg v ?_
  funext a
  match a with
  | ⟨0, _⟩ => exact Fin.ext rfl
  | ⟨1, _⟩ => exact Fin.ext rfl

/-! ## The stored accumulators -/

/-- The first product accumulator: old value plus the sum over the columns of logit times target. -/
theorem pay16_apply (x0 : Vec Ideal S1x100x16384 .f32) (x1 : Vec Ideal S1x50x16384 .i32) (a : Vec Ideal S100x50 .f32)
    (q : Fin 100) (t : Fin 50) :
    k0_pay16 (F := Ideal) x0 x1 a (ix2 q t)
      = a (ix2 q t) + ∑ c : Fin 16384, x0 (ix3 0 q c) * (((x1 (ix3 0 t c)).toInt : ℝ) : EReal) := by
  unfold k0_pay16
  rw [shapeCast_self, addf_apply, matmul_zero_apply]
  refine congrArg (a (ix2 q t) + ·) (Finset.sum_congr rfl fun c _ => ?_)
  rw [truncf_apply, pay11_apply, pay15_apply]

/-- The second product accumulator: old value plus the sum over the columns of sigmoid times target. -/
theorem pay17_apply (x0 : Vec Ideal S1x100x16384 .f32) (x1 : Vec Ideal S1x50x16384 .i32) (a : Vec Ideal S100x50 .f32)
    (q : Fin 100) (t : Fin 50) :
    k0_pay1 (F := Ideal) (k0_pay17 (F := Ideal) x0 x1 a) (ix2 q t)
      = a (ix2 q t) + ∑ c : Fin 16384, sgK (x0 (ix3 0 q c)) * (((x1 (ix3 0 t c)).toInt : ℝ) : EReal) := by
  unfold k0_pay1 k0_pay17
  rw [shapeCast_self, addf_apply, matmul_zero_apply]
  refine congrArg (a (ix2 q t) + ·) (Finset.sum_congr rfl fun c _ => ?_)
  rw [truncf_apply, pay14_apply, pay15_apply]

/-- A column accumulator plus the lane sums of an [n, 16384] matrix: at row r, the old value plus that row's sum. -/
theorem colAcc_apply {n : ℕ} (v : FVec Ideal ⟨2, ![n, 16384]⟩ .f32) (a : FVec Ideal ⟨2, ![n, 1]⟩ .f32)
    (h : (⟨2, ![n, 16384]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (hs : (⟨2, ![n, 1]⟩ : Shape).ShapeCasts ⟨2, ![n, 1]⟩) (r : Fin n) :
    shapeCast ⟨2, ![n, 1]⟩
        (addf a (shapeCast ⟨2, ![n, 1]⟩ (multiReduction (F := Ideal) .add [1] ⟨1, ![n]⟩ v 0x00000000#32 h hφ hacc) hc)) hs
        (ix2 r (0 : Fin 1))
      = a (ix2 r (0 : Fin 1)) + ∑ c : Fin 16384, v (ix2 r c) := by
  rw [shapeCast_self, addf_apply, ColumnCast.shapeCast_col_apply, laneSum_apply]

/-- The softplus total: old value plus the sum over the columns of the softplus of the logit. -/
theorem pay2_apply (x0 : Vec Ideal S1x100x16384 .f32) (a : Vec Ideal S100x1 .f32) (q : Fin 100) :
    k0_pay2 (F := Ideal) (k0_pay13 (F := Ideal) x0) a (ix2 q 0)
      = a (ix2 q 0) + ∑ c : Fin 16384, spK (x0 (ix3 0 q c)) := by
  unfold k0_pay2
  refine (colAcc_apply (k0_pay13 (F := Ideal) x0) a _ _ _ _ _ q).trans ?_
  refine congrArg (a (ix2 q 0) + ·) (Finset.sum_congr rfl fun c _ => ?_)
  rw [pay13_apply]

/-- The sigmoid total: old value plus the sum over the columns of the sigmoid of the logit. -/
theorem pay3_apply (x0 : Vec Ideal S1x100x16384 .f32) (a : Vec Ideal S100x1 .f32) (q : Fin 100) :
    k0_pay3 (F := Ideal) (k0_pay14 (F := Ideal) x0) a (ix2 q 0)
      = a (ix2 q 0) + ∑ c : Fin 16384, sgK (x0 (ix3 0 q c)) := by
  unfold k0_pay3
  refine (colAcc_apply (k0_pay14 (F := Ideal) x0) a _ _ _ _ _ q).trans ?_
  refine congrArg (a (ix2 q 0) + ·) (Finset.sum_congr rfl fun c _ => ?_)
  rw [pay14_apply]

/-- The target total: old value plus the sum over the columns of the target. -/
theorem pay4_apply (x1 : Vec Ideal S1x50x16384 .i32) (a : Vec Ideal S50x1 .f32) (t : Fin 50) :
    k0_pay4 (F := Ideal) (k0_pay12 (F := Ideal) x1) a (ix2 t 0)
      = a (ix2 t 0) + ∑ c : Fin 16384, (((x1 (ix3 0 t c)).toInt : ℝ) : EReal) := by
  unfold k0_pay4
  refine (colAcc_apply (k0_pay12 (F := Ideal) x1) a _ _ _ _ _ t).trans ?_
  refine congrArg (a (ix2 t 0) + ·) (Finset.sum_congr rfl fun c _ => ?_)
  rw [pay12_apply]

/-! ## The final value -/

/-- The value stored at the last step is the cost entry of the five totals. -/
theorem pay5_apply (ts : Vec Ideal S50x1 .f32) (neg : Vec Ideal S100x1 .f32) (xt st : Vec Ideal S100x50 .f32)
    (ss : Vec Ideal S100x1 .f32) (q : Fin 100) (t : Fin 50) :
    k0_pay5 (F := Ideal) ts neg xt st ss (ix3 0 q t)
      = outK (neg (ix2 q 0)) (xt (ix2 q t)) (st (ix2 q t)) (ss (ix2 q 0)) (ts (ix2 t 0)) := by
  unfold k0_pay5
  rw [shapeCast_ab_1ab_apply]
  simp only [addf_apply, mulf_apply, subf_apply, divf_apply, broadcast_apply]
  rw [ColumnBroadcast.broadcastTo_a1_ab_apply neg, ColumnBroadcast.broadcastTo_a1_ab_apply ss,
    broadcastTo_1b_ab_apply, transpose_ix2_apply]
  rfl

end Cert.KernelIdeal.PayIdx

end
-- ==== Proof.LibBlockAcc.lean ====
/-
  An accumulator fed one block of consecutive positions at a time.

  In a commutative additive monoid, a sum over `a * b` consecutive positions is the sum over `a` blocks of the sums
  over each block's `b` positions; an accumulator that starts at zero and receives block `k`'s sum at step `k`
  therefore holds, after `k` steps, the sum over the first `k * b` positions, and after all the steps the whole sum.
  Only commutativity and associativity of addition are used, so this holds for the extended reals with their
  infinities. (For a kernel that walks a contraction axis in blocks, in a loop or over a grid axis, accumulating each
  block's partial product, against a reference that contracts the whole axis at once.)
-/
import Mathlib

namespace BlockAcc

/-- A sum over `a * b` consecutive positions is the sum over `a` blocks of the sums over each block's `b` positions. -/
theorem sum_range_blocks {M : Type*} [AddCommMonoid M] (f : ℕ → M) (a b : ℕ) :
    ∑ n ∈ Finset.range (a * b), f n = ∑ i ∈ Finset.range a, ∑ j ∈ Finset.range b, f (i * b + j) := by
  induction a with
  | zero => simp
  | succ a ih =>
    rw [Nat.succ_mul, Finset.sum_range_add, ih, Finset.sum_range_succ]

/-- The accumulator after the first `k` blocks of `b` positions, started at zero and fed one block's sum at a time:
    `acc 0 = 0`, `acc (k + 1) = acc k + Σ_{j < b} f (k * b + j)`. -/
def blockAcc {M : Type*} [AddCommMonoid M] (f : ℕ → M) (b : ℕ) : ℕ → M
  | 0 => 0
  | k + 1 => blockAcc f b k + ∑ j ∈ Finset.range b, f (k * b + j)

/-- After `k` blocks the accumulator is the sum over the first `k * b` positions. -/
theorem blockAcc_eq {M : Type*} [AddCommMonoid M] (f : ℕ → M) (b k : ℕ) :
    blockAcc f b k = ∑ n ∈ Finset.range (k * b), f n := by
  induction k with
  | zero => simp [blockAcc]
  | succ k ih => rw [blockAcc, ih, Nat.succ_mul, Finset.sum_range_add]

/-- After all `a` blocks the accumulator is the sum over all `N = a * b` positions, as a sum over `Fin N`. -/
theorem blockAcc_all {M : Type*} [AddCommMonoid M] (f : ℕ → M) (b a N : ℕ) (hN : a * b = N) (g : Fin N → M)
    (hf : ∀ h : Fin N, f h.val = g h) : blockAcc f b a = ∑ h : Fin N, g h := by
  subst hN
  rw [blockAcc_eq, Finset.sum_range]
  exact Finset.sum_congr rfl fun h _ => hf h

end BlockAcc
-- ==== Proof.LibFoldSum.lean ====
/-
  Tile sums accumulated over consecutive grid points add up to the sum over all the columns.

  An accumulator is reset, at the first point `b` of a run, to `0` plus the sum of a row over the first tile of `W`
  consecutive columns, and at each later point `b + s` of the run the sum over tile `s` (columns `W·s … W·s + W − 1`) is
  added to it. After point `b + j` it holds the sum over the first `(j + 1)·W` columns: the fold is `0` plus the
  tiles' sums, and a sum over consecutive positions splits into its blocks. Only that addition is commutative and
  associative is used, so the statement holds for extended reals, infinite ones included.
-/
import Idealize.ShloMosaic.Lib.Pipeline.Value
import proofs.«151748_j78786880078115_2_alg».proof.Proof.LibBlockAcc
import Mathlib

open scoped BigOperators

namespace Cert.FoldSum

open Idealize.ShloMosaic

/-- The fold after `j` steps of a run whose reset is `0` plus tile `0`'s sum and whose step at point `b + s` adds tile
    `s`'s sum (tiles of `W` consecutive columns) is the sum over the first `(j + 1)·W` columns. -/
theorem accAt_blocks {N : ℕ} {ι β : Type} [AddCommMonoid β] (W e : ℕ)
    (a : (n : ℕ) → n < N → ι → β) (g : (n : ℕ) → n < N → (ι → β) → ι → β) (b : ℕ) (Fc : ι → ℕ → β)
    (ha : ∀ (h : b < N) (i : ι), a b h i = 0 + ∑ cc : Fin W, Fc i (W * 0 + cc.val))
    (hg : ∀ (n : ℕ) (h : n < N) (acc : ι → β) (i : ι), b < n → n ≤ b + e →
      g n h acc i = acc i + ∑ cc : Fin W, Fc i (W * (n - b) + cc.val))
    (j : ℕ) (hj : j ≤ e) (h : b + j < N) (i : ι) :
    Pipeline.accAt a g b j h i = ∑ n ∈ Finset.range ((j + 1) * W), Fc i n := by
  have ha' : ∀ (h : b < N) (i : ι), a b h i
      = (fun _ => (0 : β)) i + (fun n i => ∑ cc : Fin W, Fc i (W * (n - b) + cc.val)) b i := by
    intro h i
    rw [ha h i]
    simp only [Nat.sub_self]
  rw [Pipeline.accAt_add_apply a g (fun _ => 0) (fun n i => ∑ cc : Fin W, Fc i (W * (n - b) + cc.val)) b e ha' hg j hj
    h i, BlockAcc.sum_range_blocks]
  simp only [zero_add, Nat.add_sub_cancel_left]
  refine Finset.sum_congr rfl fun s _ => ?_
  rw [Finset.sum_range]
  refine Finset.sum_congr rfl fun cc _ => ?_
  rw [Nat.mul_comm]

/-- Four tiles of `16384` columns accumulated over the four points `b … b + 3` are the sum over all `65536` columns. -/
theorem accAt_tiles {N : ℕ} {ι : Type} (a : (n : ℕ) → n < N → ι → EReal)
    (g : (n : ℕ) → n < N → (ι → EReal) → ι → EReal) (b : ℕ) (Fc : ι → ℕ → EReal)
    (ha : ∀ (h : b < N) (i : ι), a b h i = 0 + ∑ cc : Fin 16384, Fc i (16384 * 0 + cc.val))
    (hg : ∀ (n : ℕ) (h : n < N) (acc : ι → EReal) (i : ι), b < n → n ≤ b + 3 →
      g n h acc i = acc i + ∑ cc : Fin 16384, Fc i (16384 * (n - b) + cc.val))
    (h : b + 3 < N) (i : ι) :
    Idealize.ShloMosaic.Pipeline.accAt a g b 3 h i = ∑ col : Fin 65536, Fc i col.val := by
  rw [accAt_blocks 16384 3 a g b Fc ha hg 3 le_rfl h i, ← Finset.sum_range (fun n => Fc i n)]

end Cert.FoldSum
-- ==== Proof.Pieces.lean ====
/-
  What one grid point's body leaves in each buffer, as a pure term of what it found there.

  The body runs in three forms: at a batch's first column tile it zeroes the five accumulators first, at the two middle
  tiles it only accumulates, and at the last tile it accumulates and then computes the cost block from the accumulators.
  In every form an accumulator ends at "what it held (or zero) + this tile's contribution", each a payload of the
  tile's logits block `x0`, its targets block `x1` and the accumulator's previous contents; the cost block is the
  payload of the five accumulators' NEW contents.
-/
import proofs.«151748_j78786880078115_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]
variable (c : Dev nD) (i : grid0.Coords)
  (arg2 : Memref sig .tc .vmem S1x100x16384 .f32) (harg2 : arg2.IsWhole) (arg3 : Memref sig .tc .vmem S1x50x16384 .i32) (harg3 : arg3.IsWhole)
  (arg4 : Memref sig .tc .vmem S1x100x50 .f32) (harg4 : arg4.IsWhole) (arg5 : Memref sig .tc .vmem S100x50 .f32) (harg5 : arg5.IsWhole)
  (arg6 : Memref sig .tc .vmem S100x50 .f32) (harg6 : arg6.IsWhole) (arg7 : Memref sig .tc .vmem S100x1 .f32) (harg7 : arg7.IsWhole)
  (arg8 : Memref sig .tc .vmem S100x1 .f32) (harg8 : arg8.IsWhole) (arg9 : Memref sig .tc .vmem S50x1 .f32) (harg9 : arg9.IsWhole)
  (x0 : Vec F S1x100x16384 .f32) (x1 : Vec F S1x50x16384 .i32)
  (xs0 xs1 : Vec F S100x50 .f32) (xs2 xs3 : Vec F S100x1 .f32) (xs4 : Vec F S50x1 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the logits·targets accumulator ends at zero plus the tile's contribution. -/
theorem first_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 = k0_pay16 x0 x1 k0_pay6 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x50) hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- First tile: the sigmoid·targets accumulator ends at zero plus the tile's contribution. -/
theorem first_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 = k0_pay1 (k0_pay17 x0 x1 k0_pay7) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x50) hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- First tile: the softplus row sums ends at zero plus the tile's contribution. -/
theorem first_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 = k0_pay2 (k0_pay13 x0) k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x1) hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- First tile: the sigmoid row sums ends at zero plus the tile's contribution. -/
theorem first_3 (hc0 : cond0_0 i) (hc1 : ¬cond0_1 i) :
    sout0_A_3 c i arg2 harg2 arg3 harg3 arg4 harg4 arg5 harg5 arg6 harg6 arg7 harg7 arg8 harg8 arg9 harg9 hc0 hc1 x0 x1 = k0_pay3 (k0_pay14 x0) k0_pay9 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x1) hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- First tile: the target row sums ends at zero plus the tile's contribution. -/
theorem first_4 (hc0 : cond0_0 i) (hc1 : ¬cond0_1 i) :
    sout0_A_4 c i arg2 harg2 arg3 harg3 arg4 harg4 arg5 harg5 arg6 harg6 arg7 harg7 arg8 harg8 arg9 harg9 hc0 hc1 x0 x1 = k0_pay4 (k0_pay12 x1) k0_pay10 := by
  unfold sout0_A_4
  rw [View.read_writes_eq_canon _ _ _ (scover0_A_4 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S50x1) hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- A middle tile: the logits·targets accumulator ends at its previous contents plus the tile's contribution. -/
theorem mid_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 xs0 xs1 xs2 xs3 xs4 = k0_pay16 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- A middle tile: the sigmoid·targets accumulator ends at its previous contents plus the tile's contribution. -/
theorem mid_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 xs0 xs1 xs2 xs3 xs4 = k0_pay1 (k0_pay17 x0 x1 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- A middle tile: the softplus row sums ends at its previous contents plus the tile's contribution. -/
theorem mid_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 xs0 xs1 xs2 xs3 xs4 = k0_pay2 (k0_pay13 x0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- A middle tile: the sigmoid row sums ends at its previous contents plus the tile's contribution. -/
theorem mid_3 (hc0 : ¬cond0_0 i) (hc1 : ¬cond0_1 i) :
    sout0_B_3 c i arg2 harg2 arg3 harg3 arg4 harg4 arg5 harg5 arg6 harg6 arg7 harg7 arg8 harg8 arg9 harg9 hc0 hc1 x0 x1 xs0 xs1 xs2 xs3 xs4 = k0_pay3 (k0_pay14 x0) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- A middle tile: the target row sums ends at its previous contents plus the tile's contribution. -/
theorem mid_4 (hc0 : ¬cond0_0 i) (hc1 : ¬cond0_1 i) :
    sout0_B_4 c i arg2 harg2 arg3 harg3 arg4 harg4 arg5 harg5 arg6 harg6 arg7 harg7 arg8 harg8 arg9 harg9 hc0 hc1 x0 x1 xs0 xs1 xs2 xs3 xs4 = k0_pay4 (k0_pay12 x1) xs4 := by
  unfold sout0_B_4
  rw [View.read_writes_eq_canon _ _ _ (scover0_B_4 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the logits·targets accumulator ends at its previous contents plus the tile's contribution. -/
theorem last_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 xs0 xs1 xs2 xs3 xs4 = k0_pay16 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the sigmoid·targets accumulator ends at its previous contents plus the tile's contribution. -/
theorem last_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 xs0 xs1 xs2 xs3 xs4 = k0_pay1 (k0_pay17 x0 x1 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the softplus row sums ends at its previous contents plus the tile's contribution. -/
theorem last_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 xs0 xs1 xs2 xs3 xs4 = k0_pay2 (k0_pay13 x0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the sigmoid row sums ends at its previous contents plus the tile's contribution. -/
theorem last_3 (hc0 : ¬cond0_0 i) (hc1 : cond0_1 i) :
    sout0_C_3 c i arg2 harg2 arg3 harg3 arg4 harg4 arg5 harg5 arg6 harg6 arg7 harg7 arg8 harg8 arg9 harg9 hc0 hc1 x0 x1 xs0 xs1 xs2 xs3 xs4 = k0_pay3 (k0_pay14 x0) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the target row sums ends at its previous contents plus the tile's contribution. -/
theorem last_4 (hc0 : ¬cond0_0 i) (hc1 : cond0_1 i) :
    sout0_C_4 c i arg2 harg2 arg3 harg3 arg4 harg4 arg5 harg5 arg6 harg6 arg7 harg7 arg8 harg8 arg9 harg9 hc0 hc1 x0 x1 xs0 xs1 xs2 xs3 xs4 = k0_pay4 (k0_pay12 x1) xs4 := by
  unfold sout0_C_4
  rw [View.read_writes_eq_canon _ _ _ (scover0_C_4 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

/-- The last tile: the cost block is the epilogue's payload of the five accumulators' new contents. -/
theorem last_out (hc0 : ¬cond0_0 i) (hc1 : cond0_1 i) :
    out0_C_2 c i arg2 harg2 arg3 harg3 arg4 harg4 arg5 harg5 arg6 harg6 arg7 harg7 arg8 harg8 arg9 harg9 hc0 hc1 x0 x1 xs0 xs1 xs2 xs3 xs4
      = k0_pay5 (k0_pay4 (k0_pay12 x1) xs4) (k0_pay2 (k0_pay13 x0) xs2) (k0_pay16 x0 x1 xs0) (k0_pay1 (k0_pay17 x0 x1 xs1)) (k0_pay3 (k0_pay14 x0) xs3) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz3]
  simp only [View.readCov_unit_zero (S := S100x50) _ hz2, View.readCov_unit_zero (S := S100x1) _ hz2, View.readCov_unit_zero (S := S50x1) _ hz2,
    View.readAt_eq_ld, harg2.read_unread, harg3.read_unread, harg5.read_unread, harg6.read_unread, harg7.read_unread, harg8.read_unread, harg9.read_unread,
    View.ld_unit_zero (S := S1x100x16384) hz3, View.ld_unit_zero (S := S1x50x16384) hz3, View.ld_unit_zero (S := S100x50) hz2, View.ld_unit_zero (S := S100x1) hz2, View.ld_unit_zero (S := S50x1) hz2]

end Cert.KernelIdeal.Pieces

end
-- ==== Proof.Last.lean ====
/-
  At the last tile of a batch the cost block is the epilogue of that point's own accumulator contents.

  A point of the grid leaves six things: the output block and the five accumulators (logits·targets, sigmoid·targets,
  softplus row sums, sigmoid row sums, target row sums).  At the last tile of a batch (point `t` with `t % 4 = 3`) each
  accumulator ends at its previous contents plus the tile's contribution, and the output block is the epilogue applied to
  exactly those five updated accumulators — so the output block is a function of what the same point leaves in the
  accumulators.
-/
import proofs.«151748_j78786880078115_2_alg».proof.Proof.Gen.KernelIdeal.Value
import proofs.«151748_j78786880078115_2_alg».proof.Proof.Pieces

noncomputable section

open Idealize.ShloMosaic Idealize.ShloMosaic.TcCoe Idealize.SL.Sem

namespace Cert.KernelIdeal.Last

open Cert.KernelIdeal Cert.KernelIdeal.Gen

variable {F : FTy → Type} [FloatOps F]

/-- A six-tuple that is the last-tile case's contents — at any memrefs, input blocks `x0 x1` and previous accumulators
    `xs0 … xs4` — has for first component the epilogue of its other five. -/
theorem epilogue_of_last (c : Dev nD) (i : grid0.Coords)
    (arg2 : Memref sig .tc .vmem S1x100x16384 .f32) (harg2 : arg2.IsWhole) (arg3 : Memref sig .tc .vmem S1x50x16384 .i32) (harg3 : arg3.IsWhole)
    (arg4 : Memref sig .tc .vmem S1x100x50 .f32) (harg4 : arg4.IsWhole) (arg5 : Memref sig .tc .vmem S100x50 .f32) (harg5 : arg5.IsWhole)
    (arg6 : Memref sig .tc .vmem S100x50 .f32) (harg6 : arg6.IsWhole) (arg7 : Memref sig .tc .vmem S100x1 .f32) (harg7 : arg7.IsWhole)
    (arg8 : Memref sig .tc .vmem S100x1 .f32) (harg8 : arg8.IsWhole) (arg9 : Memref sig .tc .vmem S50x1 .f32) (harg9 : arg9.IsWhole)
    (hc0 : ¬cond0_0 i) (hc1 : cond0_1 i)
    (x0 : Vec F S1x100x16384 .f32) (x1 : Vec F S1x50x16384 .i32)
    (xs0 xs1 : Vec F S100x50 .f32) (xs2 xs3 : Vec F S100x1 .f32) (xs4 : Vec F S50x1 .f32)
    (T : Vec F S1x100x50 .f32 × Vec F S100x50 .f32 × Vec F S100x50 .f32 × Vec F S100x1 .f32 × Vec F S100x1 .f32 × Vec F S50x1 .f32)
    (hT : T = (out0_C_2 c i arg2 harg2 arg3 harg3 arg4 harg4 arg5 harg5 arg6 harg6 arg7 harg7 arg8 harg8 arg9 harg9 hc0 hc1 x0 x1 xs0 xs1 xs2 xs3 xs4,
      sout0_C_0 c i arg2 harg2 arg3 harg3 arg4 harg4 arg5 harg5 arg6 harg6 arg7 harg7 arg8 harg8 arg9 harg9 hc0 hc1 x0 x1 xs0 xs1 xs2 xs3 xs4,
      sout0_C_1 c i arg2 harg2 arg3 harg3 arg4 harg4 arg5 harg5 arg6 harg6 arg7 harg7 arg8 harg8 arg9 harg9 hc0 hc1 x0 x1 xs0 xs1 xs2 xs3 xs4,
      sout0_C_2 c i arg2 harg2 arg3 harg3 arg4 harg4 arg5 harg5 arg6 harg6 arg7 harg7 arg8 harg8 arg9 harg9 hc0 hc1 x0 x1 xs0 xs1 xs2 xs3 xs4,
      sout0_C_3 c i arg2 harg2 arg3 harg3 arg4 harg4 arg5 harg5 arg6 harg6 arg7 harg7 arg8 harg8 arg9 harg9 hc0 hc1 x0 x1 xs0 xs1 xs2 xs3 xs4,
      sout0_C_4 c i arg2 harg2 arg3 harg3 arg4 harg4 arg5 harg5 arg6 harg6 arg7 harg7 arg8 harg8 arg9 harg9 hc0 hc1 x0 x1 xs0 xs1 xs2 xs3 xs4)) :
    T.1 = k0_pay5 T.2.2.2.2.2 T.2.2.2.1 T.2.1 T.2.2.1 T.2.2.2.2.1 := by
  subst hT
  dsimp only
  rw [Pieces.last_out c i arg2 harg2 arg3 harg3 arg4 harg4 arg5 harg5 arg6 harg6 arg7 harg7 arg8 harg8 arg9 harg9 x0 x1 xs0 xs1 xs2 xs3 xs4 hc0 hc1,
    Pieces.last_0 c i arg2 harg2 arg3 harg3 arg4 harg4 arg5 harg5 arg6 harg6 arg7 harg7 arg8 harg8 arg9 harg9 x0 x1 xs0 xs1 xs2 xs3 xs4 hc0 hc1,
    Pieces.last_1 c i arg2 harg2 arg3 harg3 arg4 harg4 arg5 harg5 arg6 harg6 arg7 harg7 arg8 harg8 arg9 harg9 x0 x1 xs0 xs1 xs2 xs3 xs4 hc0 hc1,
    Pieces.last_2 c i arg2 harg2 arg3 harg3 arg4 harg4 arg5 harg5 arg6 harg6 arg7 harg7 arg8 harg8 arg9 harg9 x0 x1 xs0 xs1 xs2 xs3 xs4 hc0 hc1,
    Pieces.last_3 c i arg2 harg2 arg3 harg3 arg4 harg4 arg5 harg5 arg6 harg6 arg7 harg7 arg8 harg8 arg9 harg9 x0 x1 xs0 xs1 xs2 xs3 xs4 hc0 hc1,
    Pieces.last_4 c i arg2 harg2 arg3 harg3 arg4 harg4 arg5 harg5 arg6 harg6 arg7 harg7 arg8 harg8 arg9 harg9 x0 x1 xs0 xs1 xs2 xs3 xs4 hc0 hc1]

variable (m : (ℓ : Loc nD τ sig) → Buf (Elt F) ℓ) (c : Dev nD)

/-- At the last tile of a batch the output block is the epilogue of what the same point leaves in the five accumulators. -/
theorem out_last (t : Fin cfg0.N) (h3 : t.val % 4 = 3) :
    (outsAt0 m c t.val t.isLt).1 = k0_pay5 (outsAt0 m c t.val t.isLt).2.2.2.2.2 (outsAt0 m c t.val t.isLt).2.2.2.1
      (outsAt0 m c t.val t.isLt).2.1 (outsAt0 m c t.val t.isLt).2.2.1 (outsAt0 m c t.val t.isLt).2.2.2.2.1 :=
  have h0 : ¬t.val % 4 = 0 := by omega
  epilogue_of_last c (grid0.coords t) (ms0_0 t) (hs0_0 t) (ms0_1 t) (hs0_1 t) (ms0_2 t) (hs0_2 t)
    scM0_0 (Memref.isWhole_whole _) scM0_1 (Memref.isWhole_whole _) scM0_2 (Memref.isWhole_whole _)
    scM0_3 (Memref.isWhole_whole _) scM0_4 (Memref.isWhole_whole _)
    (fun h => h0 ((hcond0_0 t).mp h)) ((hcond0_1 t).mpr h3) (iblk m c 0 t) (iblk m c 1 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2
    (outsAt0 m c t.val t.isLt) (outsAt0_C m c t h0 h3)

/-! ## What a point leaves in each accumulator, over what the point before left

  Off the first tile of a batch (`n % 4 ≠ 0`) a point adds its tile's contribution to the accumulator's previous
  contents, whether or not it is the last tile; at the first tile (`n % 4 = 0`) it adds it to the reset value. -/

/-- The logits·targets accumulator off the first tile of a batch: its previous contents plus the tile's contribution. -/
theorem scr_0_step (n : ℕ) (hb : n < cfg0.N) (hn : ¬n % 4 = 0) (acc : Vec F S100x50 .f32) :
    Value.scAt0_0 m c n hb acc = k0_pay16 (iblk m c 0 ⟨n, hb⟩) (iblk m c 1 ⟨n, hb⟩) acc := by
  unfold Value.scAt0_0
  rw [dif_neg hn]
  by_cases h1 : n % 4 = 3
  · rw [dif_pos h1]
    exact Pieces.last_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      acc
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) ((hcond0_1 (⟨n, hb⟩ : Fin cfg0.N)).mpr h1)
  · rw [dif_neg h1]
    exact Pieces.mid_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      acc
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) (fun h => h1 ((hcond0_1 (⟨n, hb⟩ : Fin cfg0.N)).mp h))

/-- The logits·targets accumulator at the first tile of a batch: the reset value plus the tile's contribution. -/
theorem scr_0_reset (n : ℕ) (hb : n < cfg0.N) (hn : n % 4 = 0) (acc : Vec F S100x50 .f32) :
    Value.scAt0_0 m c n hb acc = k0_pay16 (iblk m c 0 ⟨n, hb⟩) (iblk m c 1 ⟨n, hb⟩) k0_pay6 := by
  have h1 : ¬n % 4 = 3 := by omega
  unfold Value.scAt0_0
  rw [dif_pos hn, dif_neg h1]
  exact Pieces.first_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      ((hcond0_0 (⟨n, hb⟩ : Fin cfg0.N)).mpr hn) (fun h => h1 ((hcond0_1 (⟨n, hb⟩ : Fin cfg0.N)).mp h))

/-- The sigmoid·targets accumulator off the first tile of a batch: its previous contents plus the tile's contribution. -/
theorem scr_1_step (n : ℕ) (hb : n < cfg0.N) (hn : ¬n % 4 = 0) (acc : Vec F S100x50 .f32) :
    Value.scAt0_1 m c n hb acc = k0_pay1 (k0_pay17 (iblk m c 0 ⟨n, hb⟩) (iblk m c 1 ⟨n, hb⟩) acc) := by
  unfold Value.scAt0_1
  rw [dif_neg hn]
  by_cases h1 : n % 4 = 3
  · rw [dif_pos h1]
    exact Pieces.last_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      acc
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) ((hcond0_1 (⟨n, hb⟩ : Fin cfg0.N)).mpr h1)
  · rw [dif_neg h1]
    exact Pieces.mid_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      acc
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) (fun h => h1 ((hcond0_1 (⟨n, hb⟩ : Fin cfg0.N)).mp h))

/-- The sigmoid·targets accumulator at the first tile of a batch: the reset value plus the tile's contribution. -/
theorem scr_1_reset (n : ℕ) (hb : n < cfg0.N) (hn : n % 4 = 0) (acc : Vec F S100x50 .f32) :
    Value.scAt0_1 m c n hb acc = k0_pay1 (k0_pay17 (iblk m c 0 ⟨n, hb⟩) (iblk m c 1 ⟨n, hb⟩) k0_pay7) := by
  have h1 : ¬n % 4 = 3 := by omega
  unfold Value.scAt0_1
  rw [dif_pos hn, dif_neg h1]
  exact Pieces.first_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      ((hcond0_0 (⟨n, hb⟩ : Fin cfg0.N)).mpr hn) (fun h => h1 ((hcond0_1 (⟨n, hb⟩ : Fin cfg0.N)).mp h))

/-- The softplus row-sum accumulator off the first tile of a batch: its previous contents plus the tile's contribution. -/
theorem scr_2_step (n : ℕ) (hb : n < cfg0.N) (hn : ¬n % 4 = 0) (acc : Vec F S100x1 .f32) :
    Value.scAt0_2 m c n hb acc = k0_pay2 (k0_pay13 (iblk m c 0 ⟨n, hb⟩)) acc := by
  unfold Value.scAt0_2
  rw [dif_neg hn]
  by_cases h1 : n % 4 = 3
  · rw [dif_pos h1]
    exact Pieces.last_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      acc
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) ((hcond0_1 (⟨n, hb⟩ : Fin cfg0.N)).mpr h1)
  · rw [dif_neg h1]
    exact Pieces.mid_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      acc
      (outsAt0 m c ((⟨n, hb⟩ : Fin cfg0.N).val - 1) (Nat.lt_of_le_of_lt (Nat.sub_le _ _) (⟨n, hb⟩ : Fin cfg0.N).isLt)).2.2.2.2.1
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) (fun h => h1 ((hcond0_1 (⟨n, hb⟩ : Fin cfg0.N)).mp h))

/-- The softplus row-sum accumulator at the first tile of a batch: the reset value plus the tile's contribution. -/
theorem scr_2_reset (n : ℕ) (hb : n < cfg0.N) (hn : n % 4 = 0) (acc : Vec F S100x1 .f32) :
    Value.scAt0_2 m c n hb acc = k0_pay2 (k0_pay13 (iblk m c 0 ⟨n, hb⟩)) k0_pay8 := by
  have h1 : ¬n % 4 = 3 := by omega
  unfold Value.scAt0_2
  rw [dif_pos hn, dif_neg h1]
  exact Pieces.first_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      ((hcond0_0 (⟨n, hb⟩ : Fin cfg0.N)).mpr hn) (fun h => h1 ((hcond0_1 (⟨n, hb⟩ : Fin cfg0.N)).mp h))

/-- The sigmoid row-sum accumulator off the first tile of a batch: its previous contents plus the tile's contribution. -/
theorem scr_3_step (n : ℕ) (hb : n < cfg0.N) (hn : ¬n % 4 = 0) (acc : Vec F S100x1 .f32) :
    Value.scAt0_3 m c n hb acc = k0_pay3 (k0_pay14 (iblk m c 0 ⟨n, hb⟩)) acc := by
  unfold Value.scAt0_3
  rw [dif_neg hn]
  by_cases h1 : n % 4 = 3
  · rw [dif_pos h1]
    exact Pieces.last_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      acc
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) ((hcond0_1 (⟨n, hb⟩ : Fin cfg0.N)).mpr h1)
  · rw [dif_neg h1]
    exact Pieces.mid_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      acc
      (outsAt0 m c ((⟨n, hb⟩ : Fin cfg0.N).val - 1) (Nat.lt_of_le_of_lt (Nat.sub_le _ _) (⟨n, hb⟩ : Fin cfg0.N).isLt)).2.2.2.2.2
      (fun h => hn ((hcond0_0 (⟨n, hb⟩ : Fin cfg0.N)).mp h)) (fun h => h1 ((hcond0_1 (⟨n, hb⟩ : Fin cfg0.N)).mp h))

/-- The sigmoid row-sum accumulator at the first tile of a batch: the reset value plus the tile's contribution. -/
theorem scr_3_reset (n : ℕ) (hb : n < cfg0.N) (hn : n % 4 = 0) (acc : Vec F S100x1 .f32) :
    Value.scAt0_3 m c n hb acc = k0_pay3 (k0_pay14 (iblk m c 0 ⟨n, hb⟩)) k0_pay9 := by
  have h1 : ¬n % 4 = 3 := by omega
  unfold Value.scAt0_3
  rw [dif_pos hn, dif_neg h1]
  exact Pieces.first_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      ((hcond0_0 (⟨n, hb⟩ : Fin cfg0.N)).mpr hn) (fun h => h1 ((hcond0_1 (⟨n, hb⟩ : Fin cfg0.N)).mp h))

/-- The target row-sum accumulator off the first tile of a batch: its previous contents plus the tile's contribution. -/
theorem scr_4_step (n : ℕ) (hb : n < cfg0.N) (hn : ¬n % 4 = 0) (acc : Vec F S50x1 .f32) :
    Value.scAt0_4 m c n hb acc = k0_pay4 (k0_pay12 (iblk m c 1 ⟨n, hb⟩)) acc := by
  unfold Value.scAt0_4
  rw [dif_neg hn]
  by_cases h1 : n % 4 = 3
  · rw [dif_pos h1]
    exact Pieces.last_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      acc
      (fun h => hn ((hcond0_0 (⟨n, hb⟩ : Fin cfg0.N)).mp h)) ((hcond0_1 (⟨n, hb⟩ : Fin cfg0.N)).mpr h1)
  · rw [dif_neg h1]
    exact Pieces.mid_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      (outsAt0 m c ((⟨n, hb⟩ : Fin cfg0.N).val - 1) (Nat.lt_of_le_of_lt (Nat.sub_le _ _) (⟨n, hb⟩ : Fin cfg0.N).isLt)).2.1
      (outsAt0 m c ((⟨n, hb⟩ : Fin cfg0.N).val - 1) (Nat.lt_of_le_of_lt (Nat.sub_le _ _) (⟨n, hb⟩ : Fin cfg0.N).isLt)).2.2.1
      (outsAt0 m c ((⟨n, hb⟩ : Fin cfg0.N).val - 1) (Nat.lt_of_le_of_lt (Nat.sub_le _ _) (⟨n, hb⟩ : Fin cfg0.N).isLt)).2.2.2.1
      (outsAt0 m c ((⟨n, hb⟩ : Fin cfg0.N).val - 1) (Nat.lt_of_le_of_lt (Nat.sub_le _ _) (⟨n, hb⟩ : Fin cfg0.N).isLt)).2.2.2.2.1
      acc
      (fun h => hn ((hcond0_0 (⟨n, hb⟩ : Fin cfg0.N)).mp h)) (fun h => h1 ((hcond0_1 (⟨n, hb⟩ : Fin cfg0.N)).mp h))

/-- The target row-sum accumulator at the first tile of a batch: the reset value plus the tile's contribution. -/
theorem scr_4_reset (n : ℕ) (hb : n < cfg0.N) (hn : n % 4 = 0) (acc : Vec F S50x1 .f32) :
    Value.scAt0_4 m c n hb acc = k0_pay4 (k0_pay12 (iblk m c 1 ⟨n, hb⟩)) k0_pay10 := by
  have h1 : ¬n % 4 = 3 := by omega
  unfold Value.scAt0_4
  rw [dif_pos hn, dif_neg h1]
  exact Pieces.first_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N))
      scM0_0 (Memref.isWhole_whole _) scM0_1 (Memref.isWhole_whole _) scM0_2 (Memref.isWhole_whole _) scM0_3 (Memref.isWhole_whole _) scM0_4 (Memref.isWhole_whole _)
      (iblk m c 0 ⟨n, hb⟩) (iblk m c 1 ⟨n, hb⟩)
      ((hcond0_0 (⟨n, hb⟩ : Fin cfg0.N)).mpr hn) (fun h => h1 ((hcond0_1 (⟨n, hb⟩ : Fin cfg0.N)).mp h))

end Cert.KernelIdeal.Last

end
-- ==== Proof.Fold.lean ====
/-
  The accumulators over a batch's four column tiles, and the cost block the last tile computes.

  Point `n` of the grid works on batch `n / 4` and column tile `n % 4` (16384 columns).  Each of the five accumulators is
  reset at a batch's first tile to zero plus that tile's sum and adds one tile's sum at each of the next three points, so
  after the batch's last tile it holds the sum over all 65536 columns: of `x·τ`, of `sigmoid x·τ`, of `softplus x`, of
  `sigmoid x` and of `τ`, where `x` is a row of the logits and `τ` a row of the targets read as numbers.  Only
  commutativity and associativity of the sum are used.  The cost block the last tile then writes is the specification's
  entry of those five totals.
-/
import proofs.«151748_j78786880078115_2_alg».proof.Proof.Gen.KernelIdeal.Value
import proofs.«151748_j78786880078115_2_alg».proof.Proof.PayIdx
import proofs.«151748_j78786880078115_2_alg».proof.Proof.Blocks
import proofs.«151748_j78786880078115_2_alg».proof.Proof.LibFoldSum
import proofs.«151748_j78786880078115_2_alg».proof.Proof.Last
import proofs.«151748_j78786880078115_2_alg».proof.Proof.CostSpec

set_option maxRecDepth 16384

noncomputable section

open scoped BigOperators

namespace Cert.KernelIdeal.Fold

open Cert.KernelIdeal Cert.KernelIdeal.Gen Cert.KernelIdeal.Value Cert.CostSpec
open Idealize.ShloMosaic Idealize.ShloMosaic.TcCoe Idealize.SL.Sem Idealize.ShloMosaic.ValueIdx

variable (m : (ℓ : Loc nD τ sig) → Buf (Elt Ideal) ℓ) (c : Dev nD)

/-- Row `(b, q)` of the logits as a function of the column number (zero past the last column). -/
def xcol (b : Fin 8) (q : Fin 100) (col : ℕ) : EReal :=
  if h : col < 65536 then (V m c main_v0 : S8x100x65536.Idx → EReal) (ix3 b q ⟨col, h⟩) else 0

/-- Row `(b, r)` of the targets, read as numbers, as a function of the column number (zero past the last column). -/
def tcol (b : Fin 8) (r : Fin 50) (col : ℕ) : EReal :=
  if h : col < 65536 then ((((V m c main_v1 : S8x50x65536.Idx → BitVec 32) (ix3 b r ⟨col, h⟩)).toInt : ℝ) : EReal) else 0

theorem xcol_fin (b : Fin 8) (q : Fin 100) (col : Fin 65536) :
    xcol m c b q col.val = (V m c main_v0 : S8x100x65536.Idx → EReal) (ix3 b q col) := by
  unfold xcol; rw [dif_pos col.isLt]

theorem tcol_fin (b : Fin 8) (r : Fin 50) (col : Fin 65536) :
    tcol m c b r col.val = ((((V m c main_v1 : S8x50x65536.Idx → BitVec 32) (ix3 b r col)).toInt : ℝ) : EReal) := by
  unfold tcol; rw [dif_pos col.isLt]

/-- The logits block of point `n` holds columns `16384·(n % 4) …` of batch `n / 4`. -/
theorem blkX (n : ℕ) (hb : n < cfg0.N) (b : Fin 8) (hbv : b.val = n / 4) (k : ℕ) (hk : k = n % 4) (q : Fin 100) (cc : Fin 16384) :
    (iblk m c 0 ⟨n, hb⟩ : Vec Ideal S1x100x16384 .f32) (ix3 0 q cc) = xcol m c b q (16384 * k + cc.val) := by
  subst hk
  have hlt : 16384 * (n % 4) + cc.val < 65536 := by have := cc.isLt; omega
  unfold xcol; rw [dif_pos hlt]
  exact Blocks.iblk0_apply m c ⟨n, hb⟩ q cc b ⟨_, hlt⟩ hbv rfl

/-- The targets block of point `n` holds columns `16384·(n % 4) …` of batch `n / 4`. -/
theorem blkT (n : ℕ) (hb : n < cfg0.N) (b : Fin 8) (hbv : b.val = n / 4) (k : ℕ) (hk : k = n % 4) (r : Fin 50) (cc : Fin 16384) :
    (((((iblk m c 1 ⟨n, hb⟩ : Vec Ideal S1x50x16384 .i32) (ix3 0 r cc)).toInt : ℝ) : EReal)) = tcol m c b r (16384 * k + cc.val) := by
  subst hk
  have hlt : 16384 * (n % 4) + cc.val < 65536 := by have := cc.isLt; omega
  unfold tcol; rw [dif_pos hlt]
  exact congrArg (fun w : BitVec 32 => ((w.toInt : ℝ) : EReal)) (Blocks.iblk1_apply m c ⟨n, hb⟩ r cc b ⟨_, hlt⟩ hbv rfl)

/-- The column function whose 65536-column sum accumulator 0 ends at: `x·τ` along a row pair. -/
def Fc0 (b : Fin 8) : S100x50.Idx → ℕ → EReal := fun j col => xcol m c b ⟨(j 0).val, (j 0).isLt⟩ col * tcol m c b ⟨(j 1).val, (j 1).isLt⟩ col

/-- After a batch's last tile, accumulator 0 holds the sum of `x·τ` over all 65536 columns. -/
theorem total0 (t : Fin cfg0.N) (h3 : t.val % 4 = 3) (b : Fin 8) (hbv : b.val = t.val / 4) (q : Fin 100) (r : Fin 50) :
    ((outsAt0 m c t.val t.isLt).2.1 : Vec Ideal S100x50 .f32) (ix2 q r) = ∑ col : Fin 65536, xcol m c b q col.val * tcol m c b r col.val := by
  have hN : cfg0.N = 32 := N_0
  have ht := t.isLt
  have ha : ∀ (h : 4 * (t.val / 4) < cfg0.N) (i : S100x50.Idx),
      scAt0_0 m c (4 * (t.val / 4)) h (VS0_0.read (Elt Ideal) VS0_0.junk) i = 0 + ∑ cc : Fin 16384, Fc0 m c b i (16384 * 0 + cc.val) := by
    intro h i
    obtain ⟨q', r', rfl⟩ : ∃ (q' : Fin 100) (r' : Fin 50), i = ix2 q' r' := ⟨i 0, i 1, eq_ix2 i⟩
    rw [Last.scr_0_reset m c (4 * (t.val / 4)) h (by omega) _]
    refine (PayIdx.pay16_apply (iblk m c 0 ⟨4 * (t.val / 4), h⟩) (iblk m c 1 ⟨4 * (t.val / 4), h⟩) (k0_pay6 (F := Ideal)) q' r').trans ?_
    rw [PayIdx.pay6_apply]
    refine congrArg (0 + ·) (Finset.sum_congr rfl fun cc _ => ?_)
    show _ = xcol m c b q' (16384 * 0 + cc.val) * tcol m c b r' (16384 * 0 + cc.val)
    rw [blkX m c (4 * (t.val / 4)) h b (by omega) 0 (by omega) q' cc, blkT m c (4 * (t.val / 4)) h b (by omega) 0 (by omega) r' cc]
  have hg : ∀ (n : ℕ) (h : n < cfg0.N) (acc : S100x50.Idx → EReal) (i : S100x50.Idx), 4 * (t.val / 4) < n → n ≤ 4 * (t.val / 4) + 3 →
      scAt0_0 m c n h acc i = acc i + ∑ cc : Fin 16384, Fc0 m c b i (16384 * (n - 4 * (t.val / 4)) + cc.val) := by
    intro n h acc i hlo hhi
    obtain ⟨q', r', rfl⟩ : ∃ (q' : Fin 100) (r' : Fin 50), i = ix2 q' r' := ⟨i 0, i 1, eq_ix2 i⟩
    rw [Last.scr_0_step m c n h (by omega) acc]
    refine (PayIdx.pay16_apply (iblk m c 0 ⟨n, h⟩) (iblk m c 1 ⟨n, h⟩) acc q' r').trans ?_
    refine congrArg (acc _ + ·) (Finset.sum_congr rfl fun cc _ => ?_)
    show _ = xcol m c b q' (16384 * (n - 4 * (t.val / 4)) + cc.val) * tcol m c b r' (16384 * (n - 4 * (t.val / 4)) + cc.val)
    rw [blkX m c n h b (by omega) (n - 4 * (t.val / 4)) (by omega) q' cc, blkT m c n h b (by omega) (n - 4 * (t.val / 4)) (by omega) r' cc]
  have key : ∀ (j : ℕ) (hj : j = 3) (h : 4 * (t.val / 4) + j < cfg0.N),
      Pipeline.accAt (fun n h => scAt0_0 m c n h (VS0_0.read (Elt Ideal) VS0_0.junk)) (scAt0_0 m c) (4 * (t.val / 4)) j h (ix2 q r)
        = ∑ col : Fin 65536, Fc0 m c b (ix2 q r) col.val := by
    intro j hj h
    subst hj
    exact FoldSum.accAt_tiles _ _ (4 * (t.val / 4)) (Fc0 m c b) ha hg h (ix2 q r)
  rw [soutsAt0_0_eq m c t]
  exact key _ h3 _

/-- The column function whose 65536-column sum accumulator 1 ends at: `sigmoid x·τ` along a row pair. -/
def Fc1 (b : Fin 8) : S100x50.Idx → ℕ → EReal := fun j col => sgK (xcol m c b ⟨(j 0).val, (j 0).isLt⟩ col) * tcol m c b ⟨(j 1).val, (j 1).isLt⟩ col

/-- After a batch's last tile, accumulator 1 holds the sum of `sigmoid x·τ` over all 65536 columns. -/
theorem total1 (t : Fin cfg0.N) (h3 : t.val % 4 = 3) (b : Fin 8) (hbv : b.val = t.val / 4) (q : Fin 100) (r : Fin 50) :
    ((outsAt0 m c t.val t.isLt).2.2.1 : Vec Ideal S100x50 .f32) (ix2 q r) = ∑ col : Fin 65536, sgK (xcol m c b q col.val) * tcol m c b r col.val := by
  have hN : cfg0.N = 32 := N_0
  have ht := t.isLt
  have ha : ∀ (h : 4 * (t.val / 4) < cfg0.N) (i : S100x50.Idx),
      scAt0_1 m c (4 * (t.val / 4)) h (VS0_1.read (Elt Ideal) VS0_1.junk) i = 0 + ∑ cc : Fin 16384, Fc1 m c b i (16384 * 0 + cc.val) := by
    intro h i
    obtain ⟨q', r', rfl⟩ : ∃ (q' : Fin 100) (r' : Fin 50), i = ix2 q' r' := ⟨i 0, i 1, eq_ix2 i⟩
    rw [Last.scr_1_reset m c (4 * (t.val / 4)) h (by omega) _]
    refine (PayIdx.pay17_apply (iblk m c 0 ⟨4 * (t.val / 4), h⟩) (iblk m c 1 ⟨4 * (t.val / 4), h⟩) (k0_pay7 (F := Ideal)) q' r').trans ?_
    rw [PayIdx.pay7_apply]
    refine congrArg (0 + ·) (Finset.sum_congr rfl fun cc _ => ?_)
    show _ = sgK (xcol m c b q' (16384 * 0 + cc.val)) * tcol m c b r' (16384 * 0 + cc.val)
    rw [blkX m c (4 * (t.val / 4)) h b (by omega) 0 (by omega) q' cc, blkT m c (4 * (t.val / 4)) h b (by omega) 0 (by omega) r' cc]
  have hg : ∀ (n : ℕ) (h : n < cfg0.N) (acc : S100x50.Idx → EReal) (i : S100x50.Idx), 4 * (t.val / 4) < n → n ≤ 4 * (t.val / 4) + 3 →
      scAt0_1 m c n h acc i = acc i + ∑ cc : Fin 16384, Fc1 m c b i (16384 * (n - 4 * (t.val / 4)) + cc.val) := by
    intro n h acc i hlo hhi
    obtain ⟨q', r', rfl⟩ : ∃ (q' : Fin 100) (r' : Fin 50), i = ix2 q' r' := ⟨i 0, i 1, eq_ix2 i⟩
    rw [Last.scr_1_step m c n h (by omega) acc]
    refine (PayIdx.pay17_apply (iblk m c 0 ⟨n, h⟩) (iblk m c 1 ⟨n, h⟩) acc q' r').trans ?_
    refine congrArg (acc _ + ·) (Finset.sum_congr rfl fun cc _ => ?_)
    show _ = sgK (xcol m c b q' (16384 * (n - 4 * (t.val / 4)) + cc.val)) * tcol m c b r' (16384 * (n - 4 * (t.val / 4)) + cc.val)
    rw [blkX m c n h b (by omega) (n - 4 * (t.val / 4)) (by omega) q' cc, blkT m c n h b (by omega) (n - 4 * (t.val / 4)) (by omega) r' cc]
  have key : ∀ (j : ℕ) (hj : j = 3) (h : 4 * (t.val / 4) + j < cfg0.N),
      Pipeline.accAt (fun n h => scAt0_1 m c n h (VS0_1.read (Elt Ideal) VS0_1.junk)) (scAt0_1 m c) (4 * (t.val / 4)) j h (ix2 q r)
        = ∑ col : Fin 65536, Fc1 m c b (ix2 q r) col.val := by
    intro j hj h
    subst hj
    exact FoldSum.accAt_tiles _ _ (4 * (t.val / 4)) (Fc1 m c b) ha hg h (ix2 q r)
  rw [soutsAt0_1_eq m c t]
  exact key _ h3 _

/-- The column function whose 65536-column sum accumulator 2 ends at: `softplus x` along a row pair. -/
def Fc2 (b : Fin 8) : S100x1.Idx → ℕ → EReal := fun j col => spK (xcol m c b ⟨(j 0).val, (j 0).isLt⟩ col)

/-- After a batch's last tile, accumulator 2 holds the sum of `softplus x` over all 65536 columns. -/
theorem total2 (t : Fin cfg0.N) (h3 : t.val % 4 = 3) (b : Fin 8) (hbv : b.val = t.val / 4) (q : Fin 100) :
    ((outsAt0 m c t.val t.isLt).2.2.2.1 : Vec Ideal S100x1 .f32) (ix2 q (0 : Fin 1)) = ∑ col : Fin 65536, spK (xcol m c b q col.val) := by
  have hN : cfg0.N = 32 := N_0
  have ht := t.isLt
  have ha : ∀ (h : 4 * (t.val / 4) < cfg0.N) (i : S100x1.Idx),
      scAt0_2 m c (4 * (t.val / 4)) h (VS0_2.read (Elt Ideal) VS0_2.junk) i = 0 + ∑ cc : Fin 16384, Fc2 m c b i (16384 * 0 + cc.val) := by
    intro h i
    obtain ⟨q', u, rfl⟩ : ∃ (q' : Fin 100) (u : Fin 1), i = ix2 q' u := ⟨i 0, i 1, eq_ix2 i⟩
    obtain rfl : u = 0 := Subsingleton.elim _ _
    rw [Last.scr_2_reset m c (4 * (t.val / 4)) h (by omega) _]
    refine (PayIdx.pay2_apply (iblk m c 0 ⟨4 * (t.val / 4), h⟩) (k0_pay8 (F := Ideal)) q').trans ?_
    rw [PayIdx.pay8_apply]
    refine congrArg (0 + ·) (Finset.sum_congr rfl fun cc _ => ?_)
    show _ = spK (xcol m c b q' (16384 * 0 + cc.val))
    rw [blkX m c (4 * (t.val / 4)) h b (by omega) 0 (by omega) q' cc]
  have hg : ∀ (n : ℕ) (h : n < cfg0.N) (acc : S100x1.Idx → EReal) (i : S100x1.Idx), 4 * (t.val / 4) < n → n ≤ 4 * (t.val / 4) + 3 →
      scAt0_2 m c n h acc i = acc i + ∑ cc : Fin 16384, Fc2 m c b i (16384 * (n - 4 * (t.val / 4)) + cc.val) := by
    intro n h acc i hlo hhi
    obtain ⟨q', u, rfl⟩ : ∃ (q' : Fin 100) (u : Fin 1), i = ix2 q' u := ⟨i 0, i 1, eq_ix2 i⟩
    obtain rfl : u = 0 := Subsingleton.elim _ _
    rw [Last.scr_2_step m c n h (by omega) acc]
    refine (PayIdx.pay2_apply (iblk m c 0 ⟨n, h⟩) acc q').trans ?_
    refine congrArg (acc _ + ·) (Finset.sum_congr rfl fun cc _ => ?_)
    show _ = spK (xcol m c b q' (16384 * (n - 4 * (t.val / 4)) + cc.val))
    rw [blkX m c n h b (by omega) (n - 4 * (t.val / 4)) (by omega) q' cc]
  have key : ∀ (j : ℕ) (hj : j = 3) (h : 4 * (t.val / 4) + j < cfg0.N),
      Pipeline.accAt (fun n h => scAt0_2 m c n h (VS0_2.read (Elt Ideal) VS0_2.junk)) (scAt0_2 m c) (4 * (t.val / 4)) j h (ix2 q (0 : Fin 1))
        = ∑ col : Fin 65536, Fc2 m c b (ix2 q (0 : Fin 1)) col.val := by
    intro j hj h
    subst hj
    exact FoldSum.accAt_tiles _ _ (4 * (t.val / 4)) (Fc2 m c b) ha hg h (ix2 q (0 : Fin 1))
  rw [soutsAt0_2_eq m c t]
  exact key _ h3 _

/-- The column function whose 65536-column sum accumulator 3 ends at: `sigmoid x` along a row pair. -/
def Fc3 (b : Fin 8) : S100x1.Idx → ℕ → EReal := fun j col => sgK (xcol m c b ⟨(j 0).val, (j 0).isLt⟩ col)

/-- After a batch's last tile, accumulator 3 holds the sum of `sigmoid x` over all 65536 columns. -/
theorem total3 (t : Fin cfg0.N) (h3 : t.val % 4 = 3) (b : Fin 8) (hbv : b.val = t.val / 4) (q : Fin 100) :
    ((outsAt0 m c t.val t.isLt).2.2.2.2.1 : Vec Ideal S100x1 .f32) (ix2 q (0 : Fin 1)) = ∑ col : Fin 65536, sgK (xcol m c b q col.val) := by
  have hN : cfg0.N = 32 := N_0
  have ht := t.isLt
  have ha : ∀ (h : 4 * (t.val / 4) < cfg0.N) (i : S100x1.Idx),
      scAt0_3 m c (4 * (t.val / 4)) h (VS0_3.read (Elt Ideal) VS0_3.junk) i = 0 + ∑ cc : Fin 16384, Fc3 m c b i (16384 * 0 + cc.val) := by
    intro h i
    obtain ⟨q', u, rfl⟩ : ∃ (q' : Fin 100) (u : Fin 1), i = ix2 q' u := ⟨i 0, i 1, eq_ix2 i⟩
    obtain rfl : u = 0 := Subsingleton.elim _ _
    rw [Last.scr_3_reset m c (4 * (t.val / 4)) h (by omega) _]
    refine (PayIdx.pay3_apply (iblk m c 0 ⟨4 * (t.val / 4), h⟩) (k0_pay9 (F := Ideal)) q').trans ?_
    rw [PayIdx.pay9_apply]
    refine congrArg (0 + ·) (Finset.sum_congr rfl fun cc _ => ?_)
    show _ = sgK (xcol m c b q' (16384 * 0 + cc.val))
    rw [blkX m c (4 * (t.val / 4)) h b (by omega) 0 (by omega) q' cc]
  have hg : ∀ (n : ℕ) (h : n < cfg0.N) (acc : S100x1.Idx → EReal) (i : S100x1.Idx), 4 * (t.val / 4) < n → n ≤ 4 * (t.val / 4) + 3 →
      scAt0_3 m c n h acc i = acc i + ∑ cc : Fin 16384, Fc3 m c b i (16384 * (n - 4 * (t.val / 4)) + cc.val) := by
    intro n h acc i hlo hhi
    obtain ⟨q', u, rfl⟩ : ∃ (q' : Fin 100) (u : Fin 1), i = ix2 q' u := ⟨i 0, i 1, eq_ix2 i⟩
    obtain rfl : u = 0 := Subsingleton.elim _ _
    rw [Last.scr_3_step m c n h (by omega) acc]
    refine (PayIdx.pay3_apply (iblk m c 0 ⟨n, h⟩) acc q').trans ?_
    refine congrArg (acc _ + ·) (Finset.sum_congr rfl fun cc _ => ?_)
    show _ = sgK (xcol m c b q' (16384 * (n - 4 * (t.val / 4)) + cc.val))
    rw [blkX m c n h b (by omega) (n - 4 * (t.val / 4)) (by omega) q' cc]
  have key : ∀ (j : ℕ) (hj : j = 3) (h : 4 * (t.val / 4) + j < cfg0.N),
      Pipeline.accAt (fun n h => scAt0_3 m c n h (VS0_3.read (Elt Ideal) VS0_3.junk)) (scAt0_3 m c) (4 * (t.val / 4)) j h (ix2 q (0 : Fin 1))
        = ∑ col : Fin 65536, Fc3 m c b (ix2 q (0 : Fin 1)) col.val := by
    intro j hj h
    subst hj
    exact FoldSum.accAt_tiles _ _ (4 * (t.val / 4)) (Fc3 m c b) ha hg h (ix2 q (0 : Fin 1))
  rw [soutsAt0_3_eq m c t]
  exact key _ h3 _

/-- The column function whose 65536-column sum accumulator 4 ends at: `τ` along a row pair. -/
def Fc4 (b : Fin 8) : S50x1.Idx → ℕ → EReal := fun j col => tcol m c b ⟨(j 0).val, (j 0).isLt⟩ col

/-- After a batch's last tile, accumulator 4 holds the sum of `τ` over all 65536 columns. -/
theorem total4 (t : Fin cfg0.N) (h3 : t.val % 4 = 3) (b : Fin 8) (hbv : b.val = t.val / 4) (r : Fin 50) :
    ((outsAt0 m c t.val t.isLt).2.2.2.2.2 : Vec Ideal S50x1 .f32) (ix2 r (0 : Fin 1)) = ∑ col : Fin 65536, tcol m c b r col.val := by
  have hN : cfg0.N = 32 := N_0
  have ht := t.isLt
  have ha : ∀ (h : 4 * (t.val / 4) < cfg0.N) (i : S50x1.Idx),
      scAt0_4 m c (4 * (t.val / 4)) h (VS0_4.read (Elt Ideal) VS0_4.junk) i = 0 + ∑ cc : Fin 16384, Fc4 m c b i (16384 * 0 + cc.val) := by
    intro h i
    obtain ⟨r', u, rfl⟩ : ∃ (r' : Fin 50) (u : Fin 1), i = ix2 r' u := ⟨i 0, i 1, eq_ix2 i⟩
    obtain rfl : u = 0 := Subsingleton.elim _ _
    rw [Last.scr_4_reset m c (4 * (t.val / 4)) h (by omega) _]
    refine (PayIdx.pay4_apply (iblk m c 1 ⟨4 * (t.val / 4), h⟩) (k0_pay10 (F := Ideal)) r').trans ?_
    rw [PayIdx.pay10_apply]
    refine congrArg (0 + ·) (Finset.sum_congr rfl fun cc _ => ?_)
    show _ = tcol m c b r' (16384 * 0 + cc.val)
    rw [blkT m c (4 * (t.val / 4)) h b (by omega) 0 (by omega) r' cc]
  have hg : ∀ (n : ℕ) (h : n < cfg0.N) (acc : S50x1.Idx → EReal) (i : S50x1.Idx), 4 * (t.val / 4) < n → n ≤ 4 * (t.val / 4) + 3 →
      scAt0_4 m c n h acc i = acc i + ∑ cc : Fin 16384, Fc4 m c b i (16384 * (n - 4 * (t.val / 4)) + cc.val) := by
    intro n h acc i hlo hhi
    obtain ⟨r', u, rfl⟩ : ∃ (r' : Fin 50) (u : Fin 1), i = ix2 r' u := ⟨i 0, i 1, eq_ix2 i⟩
    obtain rfl : u = 0 := Subsingleton.elim _ _
    rw [Last.scr_4_step m c n h (by omega) acc]
    refine (PayIdx.pay4_apply (iblk m c 1 ⟨n, h⟩) acc r').trans ?_
    refine congrArg (acc _ + ·) (Finset.sum_congr rfl fun cc _ => ?_)
    show _ = tcol m c b r' (16384 * (n - 4 * (t.val / 4)) + cc.val)
    rw [blkT m c n h b (by omega) (n - 4 * (t.val / 4)) (by omega) r' cc]
  have key : ∀ (j : ℕ) (hj : j = 3) (h : 4 * (t.val / 4) + j < cfg0.N),
      Pipeline.accAt (fun n h => scAt0_4 m c n h (VS0_4.read (Elt Ideal) VS0_4.junk)) (scAt0_4 m c) (4 * (t.val / 4)) j h (ix2 r (0 : Fin 1))
        = ∑ col : Fin 65536, Fc4 m c b (ix2 r (0 : Fin 1)) col.val := by
    intro j hj h
    subst hj
    exact FoldSum.accAt_tiles _ _ (4 * (t.val / 4)) (Fc4 m c b) ha hg h (ix2 r (0 : Fin 1))
  rw [soutsAt0_4_eq m c t]
  exact key _ h3 _

/-- THE LAST TILE'S COST BLOCK: entry `(q, r)` is the specification's entry `(b, q, r)` of the logits and targets arrays. -/
theorem last_block (t : Fin cfg0.N) (h3 : t.val % 4 = 3) (b : Fin 8) (hbv : b.val = t.val / 4) (q : Fin 100) (r : Fin 50) :
    ((outsAt0 m c t.val t.isLt).1 : Vec Ideal S1x100x50 .f32) (ix3 (0 : Fin 1) q r)
      = Cert.CostSpec.G (V m c main_v0 : S8x100x65536.Idx → EReal) (V m c main_v1 : S8x50x65536.Idx → BitVec 32) (ix3 b q r) := by
  rw [Last.out_last m c t h3]
  refine (PayIdx.pay5_apply _ _ _ _ _ q r).trans ?_
  rw [total2 m c t h3 b hbv q, total0 m c t h3 b hbv q r, total1 m c t h3 b hbv q r, total3 m c t h3 b hbv q, total4 m c t h3 b hbv r]
  simp only [xcol_fin, tcol_fin]
  rfl

end Cert.KernelIdeal.Fold

end
-- ==== Proof.lean ====
/-
  The cost matrix of a mask matcher: the tiled kernel against the plain reference, over the extended reals.

  For each batch element the kernel walks the 65536 columns of the logits `x` [100 rows] and of the integer targets `τ`
  [50 rows] in four tiles of 16384, keeping five running sums — `Σ x·τ`, `Σ s·τ`, `Σ softplus x`, `Σ s`, `Σ τ`, with
  `s = exp (x − softplus x)` — and after the last tile writes
      ((Σ softplus x − Σ x·τ) / 65536) + (1 − (2·Σ s·τ + 1) / (Σ s + Σ τ + 1)).
  The reference computes `(Σ softplus(−x)·τ + Σ softplus x·(1 − τ)) / 65536` for the first summand, with
  `s = 1 / (1 + exp(−x))`.  With exact arithmetic the two agree wherever the logits are real numbers:
  `softplus(−x) − softplus x = −x`, so `softplus(−x)·τ + softplus x·(1 − τ) = softplus x − x·τ` term by term (this uses that
  the terms are finite: distributivity fails at infinities), and `1 / (1 + exp(−x)) = exp (x − softplus x)`; the four tile
  sums regroup into one sum by associativity and commutativity alone.  The targets may be any integers.

  The modules: the specification of an entry (CostSpec), the law between its two spellings (CostLaw), the reference read
  entry by entry (RefValue) and bridged to the specification under the precondition (Finite, Bridge); on the kernel's side
  what each form of the body leaves in each buffer (Pieces, Last), those payloads at an index (PayIdx), the windows'
  blocks as parts of the arrays (Blocks), the four-tile accumulation as one sum (LibFoldSum, Fold), and the passage from the
  last tile's block to the whole result array (Cover); Claims assembles the five claims.
-/
import proofs.«151748_j78786880078115_2_alg».proof.Defs
import proofs.«151748_j78786880078115_2_alg».proof.Proof.Gen.Kernel
import proofs.«151748_j78786880078115_2_alg».proof.Proof.Gen.Kernel.Skeleton
import proofs.«151748_j78786880078115_2_alg».proof.Proof.Gen.Kernel.Launch
import proofs.«151748_j78786880078115_2_alg».proof.Proof.Gen.Kernel.Points
import proofs.«151748_j78786880078115_2_alg».proof.Proof.Gen.Kernel.Frame
import proofs.«151748_j78786880078115_2_alg».proof.Proof.Gen.KernelIdeal
import proofs.«151748_j78786880078115_2_alg».proof.Proof.Gen.KernelIdeal.Skeleton
import proofs.«151748_j78786880078115_2_alg».proof.Proof.Gen.KernelIdeal.Launch
import proofs.«151748_j78786880078115_2_alg».proof.Proof.Gen.KernelIdeal.Points
import proofs.«151748_j78786880078115_2_alg».proof.Proof.Gen.KernelIdeal.Frame
import proofs.«151748_j78786880078115_2_alg».proof.Proof.Gen.ReferenceIdeal
import proofs.«151748_j78786880078115_2_alg».proof.Proof.Gen.Pre_finite_inputs
import proofs.«151748_j78786880078115_2_alg».proof.Proof.Gen.KernelIdeal.Value
import proofs.«151748_j78786880078115_2_alg».proof.Proof.Gen.ReferenceIdeal.Run
import proofs.«151748_j78786880078115_2_alg».proof.Proof.Gen.ReferenceIdeal.Read
import proofs.«151748_j78786880078115_2_alg».proof.Proof.Claims
import proofs.«151748_j78786880078115_2_alg».proof.Proof.Cover
import proofs.«151748_j78786880078115_2_alg».proof.Proof.Fold
import Idealize.ShloMosaic.Adequacy
import Idealize.ShloMosaic.Init

noncomputable section

namespace Cert.Proof

open Idealize.ShloMosaic Idealize.SL.Sem

/-- The kernel's result array after the run is the specification of the reshaped arguments: the last tile of every batch
    writes the specification's block, and those blocks cover the array. -/
theorem kernel_result (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 2 Cert.KernelIdeal.cfg0.N
      = Cert.CostSpec.G (Cert.KernelIdeal.Gen.V m c Cert.KernelIdeal.main_v0) (Cert.KernelIdeal.Gen.V m c Cert.KernelIdeal.main_v1) :=
  Cert.KernelIdeal.Cover.final_of_last m c _ (fun t h3 b hbv q r => Cert.KernelIdeal.Fold.last_block m c t h3 b hbv q r)

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic kernel_result⟩

end Cert.Proof

end
